-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x128 : Shape := ⟨2, ![8192, 128]⟩
abbrev S4096x1 : Shape := ⟨2, ![4096, 1]⟩
abbrev S8192x1 : Shape := ⟨2, ![8192, 1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S4096x1 : S_.BroadcastsInDim S4096x1 (![] : Fin 0 → Fin S4096x1.rank)
  reducesTo_S4096x1_S_d0_1 : S4096x1.ReducesTo [0, 1] S_
  bcast_S_S8192x1 : S_.BroadcastsInDim S8192x1 (![] : Fin 0 → Fin S8192x1.rank)
  reducesTo_S8192x1_S_d0_1 : S8192x1.ReducesTo [0, 1] S_

variable [Facts]

def fn_part1 {F : FTy → Type} [FloatOps F] (main_arg4 : FVec F S4096x1 .f32) (main_arg5 : FVec F S8192x1 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S8192x1 .f32 := Host.absf main_arg5
  let main_cst_8 : FVec F S_ .f32 := constant S_ .f32 0x7F800000#32
  let main_v25 : FVec F S8192x1 .f32 := broadcastInDim S8192x1 ![] bcast_S_S8192x1 main_cst_8
  let main_v26 : IVec S8192x1 1 := cmpf .olt main_v24 main_v25
  let main_c_9 : IVec S_ 1 := constantI S_ 1 1#1
  let main_v27 : IVec S_ 1 := (fun x v => Host.reduce IntOp.andi x v reducesTo_S8192x1_S_d0_1 h_S_) main_v26 main_c_9
  let main_v28 : IVec S_ 1 := andi main_v23 main_v27
  main_v28

def fn {F : FTy → Type} [FloatOps F] (main_arg0 : FVec F S4096x128 .f32) (main_arg1 : FVec F S4096x128 .f32) (main_arg2 : FVec F S8192x128 .f32) (main_arg3 : FVec F S4096x1 .f32) (main_arg4 : FVec F S4096x1 .f32) (main_arg5 : FVec F S8192x1 .f32) (main_arg6 : IVec S_ 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_arg5 main_v13 main_v16
-- ==== Kernel.lean ====
abbrev S4096x128 : Shape := ⟨2, ![4096, 128]⟩
abbrev S8192x128 : Shape := ⟨2, ![8192, 128]⟩
abbrev S4096x1 : Shape := ⟨2, ![4096, 1]⟩
abbrev S8192x1 : Shape := ⟨2, ![8192, 1]⟩
abbrev S_ : Shape := ⟨0, ![]⟩
abbrev S8192 : Shape := ⟨1, ![8192]⟩
abbrev S8192x2 : Shape := ⟨2, ![8192, 2]⟩
abbrev S8192x130 : Shape := ⟨2, ![8192, 130]⟩
abbrev S128x8192 : Shape := ⟨2, ![128, 8192]⟩
abbrev S1x8192 : Shape := ⟨2, ![1, 8192]⟩
abbrev S130x8192 : Shape := ⟨2, ![130, 8192]⟩
abbrev S512x130 : Shape := ⟨2, ![512, 130]⟩
abbrev S130x2048 : Shape := ⟨2, ![130, 2048]⟩
abbrev S512x1 : Shape := ⟨2, ![512, 1]⟩
abbrev S512x2048 : Shape := ⟨2, ![512, 2048]⟩
abbrev S512 : Shape := ⟨1, ![512]⟩

abbrev nBuf : Space → Nat
  | .hbm => 45
  | .vmem => 15
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S4096x1, .f32⟩
  | .hbm, ⟨4, _⟩ => ⟨S4096x1, .f32⟩
  | .hbm, ⟨5, _⟩ => ⟨S8192x1, .f32⟩
  | .hbm, ⟨6, _⟩ => ⟨S_, .i32⟩
  | .hbm, ⟨7, _⟩ => ⟨S8192x128, .f32⟩
  | .hbm, ⟨8, _⟩ => ⟨S8192x1, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .bf16⟩
  | .hbm, ⟨14, _⟩ => ⟨S8192x2, .bf16⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x128, .bf16⟩
  | .hbm, ⟨19, _⟩ => ⟨S8192x130, .bf16⟩
  | .hbm, ⟨20, _⟩ => ⟨S8192x128, .f32⟩
  | .hbm, ⟨21, _⟩ => ⟨S_, .f32⟩
  | .hbm, ⟨22, _⟩ => ⟨S8192, .f32⟩
  | .hbm, ⟨23, _⟩ => ⟨S8192, .bf16⟩
  | .hbm, ⟨24, _⟩ => ⟨S8192, .f32⟩
  | .hbm, ⟨25, _⟩ => ⟨S8192, .f32⟩
  | .hbm, ⟨26, _⟩ => ⟨S8192, .bf16⟩
  | .hbm, ⟨27, _⟩ => ⟨S128x8192, .f32⟩
  | .hbm, ⟨28, _⟩ => ⟨S128x8192, .bf16⟩
  | .hbm, ⟨29, _⟩ => ⟨S1x8192, .bf16⟩
  | .hbm, ⟨30, _⟩ => ⟨S1x8192, .bf16⟩
  | .hbm, ⟨31, _⟩ => ⟨S130x8192, .bf16⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S512x130, .bf16⟩
  | .local _ .vmem, ⟨1, _⟩ => ⟨S512x130, .bf16⟩
  | .local _ .vmem, ⟨2, _⟩ => ⟨S130x2048, .bf16⟩
  | .local _ .vmem, ⟨3, _⟩ => ⟨S130x2048, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x130 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S130x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  concatenates_S4096x128_S4096x128_S8192x128_d0 : Shape.Concatenates [S4096x128, S4096x128] S8192x128 0
  concatenates_S4096x1_S4096x1_S8192x1_d0 : Shape.Concatenates [S4096x1, S4096x1] S8192x1 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x2 : S_.BroadcastsInDim S8192x2 (![] : Fin 0 → Fin S8192x2.rank)
  bcast_S_S8192x128 : S_.BroadcastsInDim S8192x128 (![] : Fin 0 → Fin S8192x128.rank)
  bitsLt_bf16_f32 : FTy.bits .bf16 < FTy.bits .f32
  concatenates_S8192x128_S8192x2_S8192x130_d1 : Shape.Concatenates [S8192x128, S8192x2] S8192x130 1
  transposes_S8192x128_S128x8192_1_0 : S8192x128.Transposes [1, 0] S128x8192
  bcast_S8192_S1x8192_1 : S8192.BroadcastsInDim S1x8192 (![1] : Fin 1 → Fin S1x8192.rank)
  concatenates_S128x8192_S1x8192_S1x8192_S130x8192_d0 : Shape.Concatenates [S128x8192, S1x8192, S1x8192] S130x8192 0
  inb_S512x130_S512x130_0_0 : ∀ a, (![0, 0] : Fin 2 → Nat) a + S512x130.size a ≤ S512x130.size a
  h_S512x130 : 0 < S512x130.numel
  shapeCasts_S512x130_S512x130 : S512x130.ShapeCasts S512x130
  inb_S130x2048_S130x2048_0_0 : ∀ a, (![0, 0] : Fin 2 → Nat) a + S130x2048.size a ≤ S130x2048.size a
  h_S130x2048 : 0 < S130x2048.numel
  shapeCasts_S130x2048_S130x2048 : S130x2048.ShapeCasts S130x2048
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reducesTo_S8192x1_S_d0_1 : S8192x1.ReducesTo [0, 1] S_
  dot_S512x130_S130x2048_S512x2048_1_0_0_1_n_n_wf : DotDims.WF S512x130 S130x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x130.size a ≤ S8192x130.size a
  hwx0_0 : ∀ i : grid0.Coords, EltTy.bits .bf16 = 32 ∨ (Rect.block (s := S8192x130) S512x130.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S130x2048.size a ≤ S130x8192.size a
  hwx0_1 : ∀ i : grid0.Coords, EltTy.bits .bf16 = 32 ∨ (Rect.block (s := S130x8192) S130x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)

variable [Facts₀]

def dot_S512x130_S130x2048_S512x2048_1_0_0_1_n_n : DotDims S512x130 S130x2048 S512x2048 where
  lhsContracting := [1]
  rhsContracting := [0]
  lhsNonContracting := [0]
  rhsNonContracting := [1]
  lhsBatch := []
  rhsBatch := []
  wf := dot_S512x130_S130x2048_S512x2048_1_0_0_1_n_n_wf

abbrev win0_0 : Pipeline.Window sig grid0 :=
  Pipeline.Window.ofSpec (Memref.whole main_v9) S512x130.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S130x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond3 i == 1#1) | 6 => fun i => !(k0_cond3 i == 1#1) | ⟨_ + 7, h⟩ => absurd h (Nat.not_lt.2 (Nat.le_add_left _ _))

class Facts : Prop extends Facts₀ where

variable [Facts]
-- ==== ReferenceIdeal.lean ====
abbrev S4096x128 : Shape := ⟨2, ![4096, 128]⟩
abbrev S8192x128 : Shape := ⟨2, ![8192, 128]⟩
abbrev S4096x1 : Shape := ⟨2, ![4096, 1]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S4096x1, .f32⟩
  | .hbm, ⟨4, _⟩ => ⟨S4096x1, .f32⟩
  | .hbm, ⟨5, _⟩ => ⟨S8192x1, .f32⟩
  | .hbm, ⟨6, _⟩ => ⟨S_, .i32⟩
  | .hbm, ⟨7, _⟩ => ⟨S8192x128, .f32⟩
  | .hbm, ⟨8, _⟩ => ⟨S8192x1, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S128x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_cst_13 : Ref sig .tc := ⟨.hbm, 58, rfl⟩
abbrev main_v37 : Ref sig .tc := ⟨.hbm, 59, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  concatenates_S4096x1_S4096x1_S8192x1_d0 : Shape.Concatenates [S4096x1, S4096x1] S8192x1 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192x1_S8192_d1 : S8192x1.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KbShared.lean ====
/-
  What the runs of this program's kernel share.

  The program is: 25 host operations (they build, from the seven arguments, the five arrays the kernel reads), ONE
  kernel launched on a 16 × 4 grid of points (row block i, column block j; point t has j = t mod 4), then 11 host
  operations that reduce the kernel's two result columns to three scalars.

  The kernel's body branches on j only:
    j = 0       the row-minimum of this column block is STORED into a scratch column,
    j > 0       the scratch column is replaced by its minimum with this block's row-minimum,
    j = 3       (after that) the two result columns are written from the scratch column and three input columns.
  So a point is in one of three cases — first (j = 0), middle (j = 1, 2), last (j = 3) —, the scratch column is CARRIED from
  each point to the next, and the two result windows are idle (untouched, not written back) except at the last case.

  Here: the memory the kernel is launched on (the arguments after the first 25 operations), that the seven arguments are
  written by no host operation, each window's block at a point, the three branch conditions in closed form over the grid,
  where the result windows are idle, and the invariant the launch hands the body (the scratch column owned at SOME contents).
-/
import proofs.«157631_g19645180411971_cont_sun_c4_111_6_alg».proof.Proof.Gen.Kernel.Launch
import proofs.«157631_g19645180411971_cont_sun_c4_111_6_alg».proof.Proof.Gen.Kernel.Skeleton
import proofs.«157631_g19645180411971_cont_sun_c4_111_6_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the kernel -/

/-- The buffers of core `c` when the kernel is launched: the launch memory after the 25 host operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the operations before the kernel, the kernel, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the kernel touch only buffers that are not private to the kernel. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array the kernel reads or writes: each writes only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, Finset.mem_singleton] <;> exact StableHlo.devRef_ne_of_ne (by decide)

/-- No host operation before the kernel writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation after the kernel writes argument 0, and it is no array of the kernel's: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the kernel writes argument 1, and it is no array of the kernel's: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the kernel writes argument 2, and it is no array of the kernel's: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the kernel writes argument 3, and it is no array of the kernel's: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the kernel writes argument 4, and it is no array of the kernel's: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the kernel writes argument 6, and it is no array of the kernel's: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with every array of the kernel at what the proof data computes and every other buffer as the
    operations after the kernel leave it: the seven arguments end as launched. Six are no array of the kernel's and
    are written by no host operation; the sixth argument (the manifold predictions) is the array of an INPUT window,
    which the kernel only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).1 4).trans (((dats 0 c).arrAt_in 4 rfl _).trans ((hA c 4).trans (V_main_arg5 m c))),
    ((h c).2 main_arg6 (Pipeline.mem_restRefs_of main_arg6 (by decide) (by decide))).trans (W_main_arg6 m dats c)⟩) h

/-! ## The body's three branch conditions, over the grid -/

/-- "This is the first column block" (j = 0), as the body computes it. -/
abbrev cond0_0 (i : grid0.Coords) : Prop := (Scalar.cmpi .ne (Scalar.extui (Scalar.cmpi .eq (BitVec.ofNat 32 (i 1).val) 0#32)) 0#32) = 1#1
/-- It holds at the points t with t mod 4 = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is a later column block" (j > 0), as the body computes it. -/
abbrev cond0_1 (i : grid0.Coords) : Prop := (Scalar.cmpi .ne (Scalar.extui (Scalar.cmpi .sgt (BitVec.ofNat 32 (i 1).val) 0#32)) 0#32) = 1#1
/-- It holds at the points t with t mod 4 ≠ 0. -/
theorem hcond0_1 : ∀ t : Fin cfg0.N, cond0_1 (grid0.coords t) ↔ ¬ t.val % 4 = 0 :=
  (by decide +kernel : ∀ t : Fin grid0.N, cond0_1 (grid0.coords t) ↔ ¬ t.val % 4 = 0)

/-- "This is the last column block" (j = 3), as the body computes it. -/
abbrev cond0_2 (i : grid0.Coords) : Prop := k0_cond3 i = 1#1
/-- It holds at the points t with t mod 4 = 3. -/
theorem hcond0_2 : ∀ t : Fin cfg0.N, cond0_2 (grid0.coords t) ↔ t.val % 4 = 3 :=
  (by decide +kernel : ∀ t : Fin grid0.N, cond0_2 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last column block the first result window is idle: nothing is stored into it, -/
theorem idleAt0_5 : ∀ t : Fin cfg0.N, ¬cond0_2 (grid0.coords t) → cfg0.idle 5 (grid0.coords t) = true := by decide +kernel
/-- and it is not written back there. -/
theorem noFlush0_5 : ∀ t : Fin cfg0.N, ¬cond0_2 (grid0.coords t) → (cfg0.win 5).flush t = false := by decide +kernel
/-- At the last column block it is live. -/
theorem liveAt0_5 : ∀ t : Fin cfg0.N, cond0_2 (grid0.coords t) → cfg0.idle 5 (grid0.coords t) = false := by decide +kernel
/-- The same for the second result window. -/
theorem idleAt0_6 : ∀ t : Fin cfg0.N, ¬cond0_2 (grid0.coords t) → cfg0.idle 6 (grid0.coords t) = true := by decide +kernel
theorem noFlush0_6 : ∀ t : Fin cfg0.N, ¬cond0_2 (grid0.coords t) → (cfg0.win 6).flush t = false := by decide +kernel
theorem liveAt0_6 : ∀ t : Fin cfg0.N, cond0_2 (grid0.coords t) → cfg0.idle 6 (grid0.coords t) = false := by decide +kernel

/-! ## The memory the body is called on -/

/-- Each window's current staging buffer at point `t`, and that it is a whole buffer. -/
abbrev ms0_0 (t : Fin cfg0.N) : Memref sig .tc .vmem S512x130 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S130x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The scratch column: a whole buffer of the kernel's own. -/
abbrev scM0_0 : Memref sig .tc .vmem S512x1 .f32 := Memref.whole cc0_scratch0
/-- The scratch column as a view: what it holds is stated through it. -/
abbrev VS0_0 : View sig .tc .vmem S512x1 .f32 := scM0_0.view
/-- One staging buffer of each result window, through which its contents are stated. -/
abbrev VO0_5 : View sig .tc .vmem S512x1 .f32 := (Memref.whole cc0_stg5_0 : Memref sig .tc .vmem S512x1 .f32).view
abbrev VO0_6 : View sig .tc .vmem S512x1 .f32 := (Memref.whole cc0_stg6_0 : Memref sig .tc .vmem S512x1 .f32).view

/-- What the launch hands the body besides the windows: the scratch column owned at SOME contents, and the
    generator's register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KbRuns.lean ====
/-
  The kernel's body, run once per case.

  On whole buffers — the two matrix blocks at given contents, the scratch column at anything (first case) or at the
  contents the point before left (middle and last case), and in the last case the three input columns at given contents
  and the two result columns at anything — the body runs to its end without a fault, leaves every buffer it only read as
  it was, and leaves each buffer it stored into holding its stores. Which stores those are is not transcribed: each list
  of pieces is whatever the symbolic run of the body finds, and the run's proof is the evidence.
-/
import proofs.«157631_g19645180411971_cont_sun_c4_111_6_alg».proof.Proof.KbShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST case (j = 0): the body loads the two matrix blocks, and stores this block's row-minimum into the scratch column. -/
noncomputable def kernelRun0_A (c : Dev nD) (i : grid0.Coords) (arg2 : Memref sig .tc .vmem S512x130 .bf16) (harg2 : arg2.IsWhole) (arg3 : Memref sig .tc .vmem S130x2048 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : cond0_0 i) (hc1 : ¬cond0_1 i) (hc2 : ¬cond0_2 i)
    (x0 : Vec F S512x130 .bf16) (x1 : Vec F S130x2048 .bf16) :
    { LS0 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__dist_loss_kernel i arg2 harg2 arg3 harg3 arg4 harg4 arg5 harg5 arg6 harg6 arg7 harg7 arg8 harg8 arg9 harg9) K } := by
  refine ⟨?_, fun E K => ?run⟩
  case run =>
    simp only [cc0__dist_loss_kernel_eq_skeleton]; unfold cc0__dist_loss_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE case (j = 1, 2): the body loads the two matrix blocks and the scratch column (at the contents `xs0` the point
    before left), and stores the minimum of the two back into the scratch column. -/
noncomputable def kernelRun0_B (c : Dev nD) (i : grid0.Coords) (arg2 : Memref sig .tc .vmem S512x130 .bf16) (harg2 : arg2.IsWhole) (arg3 : Memref sig .tc .vmem S130x2048 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : ¬cond0_0 i) (hc1 : cond0_1 i) (hc2 : ¬cond0_2 i)
    (x0 : Vec F S512x130 .bf16) (x1 : Vec F S130x2048 .bf16) (xs0 : Vec F S512x1 .f32) :
    { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__dist_loss_kernel i arg2 harg2 arg3 harg3 arg4 harg4 arg5 harg5 arg6 harg6 arg7 harg7 arg8 harg8 arg9 harg9) K } := by
  refine ⟨?_, fun E K => ?run⟩
  case run =>
    simp only [cc0__dist_loss_kernel_eq_skeleton]; unfold cc0__dist_loss_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 2000000 in
/-- LAST case (j = 3): as the middle case, and then the body loads the scratch column again, the three input columns
    (squared norms `x2`, predictions `x3`, manifold predictions `x4`) and the two result columns, and stores both results. -/
noncomputable def kernelRun0_C (c : Dev nD) (i : grid0.Coords) (arg2 : Memref sig .tc .vmem S512x130 .bf16) (harg2 : arg2.IsWhole) (arg3 : Memref sig .tc .vmem S130x2048 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : ¬cond0_0 i) (hc1 : cond0_1 i) (hc2 : cond0_2 i)
    (x0 : Vec F S512x130 .bf16) (x1 : Vec F S130x2048 .bf16) (x2 x3 x4 : Vec F S512x1 .f32) (xs0 : Vec F S512x1 .f32) :
    Σ' (L5 : List (View.Piece (Elt F) S512x1 .f32)) (L6 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E (cc0__dist_loss_kernel i arg2 harg2 arg3 harg3 arg4 harg4 arg5 harg5 arg6 harg6 arg7 harg7 arg8 harg8 arg9 harg9) K } := by
  refine ⟨?_, ?_, ?_, fun E K => ?run⟩
  case run =>
    simp only [cc0__dist_loss_kernel_eq_skeleton]; unfold cc0__dist_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.KbFrame.lean ====
/-
  The kernel's frame: it runs to its end on every core without a fault, and the seven arguments end unchanged.

  What each case of the body leaves in the scratch column and the result columns is read back from the stores the
  symbolic runs found (their pieces tile the 512 × 1 column, so they cover it). Point by point (`outsAt0`): at a first
  column block the scratch column holds that case's store; at a later one, that case's store computed FROM what the point
  before left there; the result columns are placeholders except at a last column block. The invariant carried between
  points (`PhiS`) owns the scratch column at exactly those contents. With the windows' input blocks found in their
  staging buffers at every point, each point's obligation is its case's run, and the launch theorem for a kernel with host
  operations around it and a tracked invariant gives the run of the whole program.
-/
import proofs.«157631_g19645180411971_cont_sun_c4_111_6_alg».proof.Proof.KbRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in (j = t mod 4) -/

theorem cA0 (t : Fin cfg0.N) (h0 : t.val % 4 = 0) : cond0_0 (grid0.coords t) := (hcond0_0 t).mpr h0
theorem cA1 (t : Fin cfg0.N) (h0 : t.val % 4 = 0) : ¬cond0_1 (grid0.coords t) := fun h => ((hcond0_1 t).mp h) h0
theorem cA2 (t : Fin cfg0.N) (h0 : t.val % 4 = 0) : ¬cond0_2 (grid0.coords t) := fun h => by
  have h3 := (hcond0_2 t).mp h; omega
theorem cB0 (t : Fin cfg0.N) (h0 : ¬t.val % 4 = 0) : ¬cond0_0 (grid0.coords t) := fun h => h0 ((hcond0_0 t).mp h)
theorem cB1 (t : Fin cfg0.N) (h0 : ¬t.val % 4 = 0) : cond0_1 (grid0.coords t) := (hcond0_1 t).mpr h0
theorem cB2 (t : Fin cfg0.N) (h3 : ¬t.val % 4 = 3) : ¬cond0_2 (grid0.coords t) := fun h => h3 ((hcond0_2 t).mp h)
theorem cC0 (t : Fin cfg0.N) (h3 : t.val % 4 = 3) : ¬t.val % 4 = 0 := by omega
theorem cC2 (t : Fin cfg0.N) (h3 : t.val % 4 = 3) : cond0_2 (grid0.coords t) := (hcond0_2 t).mpr h3

/-! ## Each case's run at a point, on the point's buffers and blocks -/

/-- The first case's run at point `t`. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cA0 t h0) (cA1 t h0) (cA2 t h0) (iblk m c 0 t) (iblk m c 1 t)
/-- The middle case's run at point `t`, from the scratch column's contents `xs0`. -/
abbrev runB (c : Dev nD) (t : Fin cfg0.N) (h0 : ¬t.val % 4 = 0) (h3 : ¬t.val % 4 = 3) (xs0 : Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cB0 t h0) (cB1 t h0) (cB2 t h3) (iblk m c 0 t) (iblk m c 1 t) xs0
/-- The last case's run at point `t`, from the scratch column's contents `xs0`. -/
abbrev runC (c : Dev nD) (t : Fin cfg0.N) (h3 : t.val % 4 = 3) (xs0 : Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cB0 t (cC0 t h3)) (cB1 t (cC0 t h3)) (cC2 t h3) (iblk m c 0 t) (iblk m c 1 t) (iblk m c 2 t) (iblk m c 3 t) (iblk m c 4 t) xs0

/-! ## What each case leaves -/

/-- The first case's stores into the scratch column cover it, -/
theorem coverA (c : Dev nD) (t : Fin cfg0.N) (h0 : t.val % 4 = 0) (y : S512x1.Idx) :
    ∃ pc ∈ (runA m c t h0).1, y ∈ pc.1.set :=
  View.cover_of_tiledL (runA m c t h0).1 S512x1.size (by sl_kernel_rfl) y
/-- and this is what they leave there. -/
def sA (c : Dev nD) (t : Fin cfg0.N) (h0 : t.val % 4 = 0) : Vec F S512x1 .f32 :=
  VS0_0.read (Elt F) (VS0_0.writes (Elt F) VS0_0.junk (runA m c t h0).1)

theorem coverB (c : Dev nD) (t : Fin cfg0.N) (h0 : ¬t.val % 4 = 0) (h3 : ¬t.val % 4 = 3) (xs0 : Vec F S512x1 .f32) (y : S512x1.Idx) :
    ∃ pc ∈ (runB m c t h0 h3 xs0).1, y ∈ pc.1.set :=
  View.cover_of_tiledL (runB m c t h0 h3 xs0).1 S512x1.size (by sl_kernel_rfl) y
/-- What the middle case leaves in the scratch column. -/
def sB (c : Dev nD) (t : Fin cfg0.N) (h0 : ¬t.val % 4 = 0) (h3 : ¬t.val % 4 = 3) (xs0 : Vec F S512x1 .f32) : Vec F S512x1 .f32 :=
  VS0_0.read (Elt F) (VS0_0.writes (Elt F) VS0_0.junk (runB m c t h0 h3 xs0).1)

theorem cover5C (c : Dev nD) (t : Fin cfg0.N) (h3 : t.val % 4 = 3) (xs0 : Vec F S512x1 .f32) (y : S512x1.Idx) :
    ∃ pc ∈ (runC m c t h3 xs0).1, y ∈ pc.1.set :=
  View.cover_of_tiledL (runC m c t h3 xs0).1 S512x1.size (by sl_kernel_rfl) y
theorem cover6C (c : Dev nD) (t : Fin cfg0.N) (h3 : t.val % 4 = 3) (xs0 : Vec F S512x1 .f32) (y : S512x1.Idx) :
    ∃ pc ∈ (runC m c t h3 xs0).2.1, y ∈ pc.1.set :=
  View.cover_of_tiledL (runC m c t h3 xs0).2.1 S512x1.size (by sl_kernel_rfl) y
theorem coverSC (c : Dev nD) (t : Fin cfg0.N) (h3 : t.val % 4 = 3) (xs0 : Vec F S512x1 .f32) (y : S512x1.Idx) :
    ∃ pc ∈ (runC m c t h3 xs0).2.2.1, y ∈ pc.1.set :=
  View.cover_of_tiledL (runC m c t h3 xs0).2.2.1 S512x1.size (by sl_kernel_rfl) y
/-- What the last case leaves in the first result column, -/
def o5C (c : Dev nD) (t : Fin cfg0.N) (h3 : t.val % 4 = 3) (xs0 : Vec F S512x1 .f32) : Vec F S512x1 .f32 :=
  VO0_5.read (Elt F) (VO0_5.writes (Elt F) VO0_5.junk (runC m c t h3 xs0).1)
/-- in the second result column, -/
def o6C (c : Dev nD) (t : Fin cfg0.N) (h3 : t.val % 4 = 3) (xs0 : Vec F S512x1 .f32) : Vec F S512x1 .f32 :=
  VO0_6.read (Elt F) (VO0_6.writes (Elt F) VO0_6.junk (runC m c t h3 xs0).2.1)
/-- and in the scratch column. -/
def sC (c : Dev nD) (t : Fin cfg0.N) (h3 : t.val % 4 = 3) (xs0 : Vec F S512x1 .f32) : Vec F S512x1 .f32 :=
  VS0_0.read (Elt F) (VS0_0.writes (Elt F) VS0_0.junk (runC m c t h3 xs0).2.2.1)

/-- A result column where nothing was stored: a placeholder nothing consults (the window is idle there). -/
def idle5 : Vec F S512x1 .f32 := VO0_5.read (Elt F) VO0_5.junk
def idle6 : Vec F S512x1 .f32 := VO0_6.read (Elt F) VO0_6.junk

/-! ## Point by point -/

/-- What the two result columns' staging buffers and the scratch column hold after the body at position `n`:
    the case of `n mod 4`, the later cases computed from what position `n − 1` left in the scratch column. -/
def outsAt0 (c : Dev nD) : (n : ℕ) → n < cfg0.N → Vec F S512x1 .f32 × Vec F S512x1 .f32 × Vec F S512x1 .f32
  | 0, hn => (idle5, idle6, sA m c ⟨0, hn⟩ (Nat.zero_mod _))
  | n + 1, hn =>
    if h0 : (n + 1) % 4 = 0 then
      (idle5, idle6, sA m c ⟨n + 1, hn⟩ h0)
    else
      if h3 : (n + 1) % 4 = 3 then
        (o5C m c ⟨n + 1, hn⟩ h3 (outsAt0 c n (Nat.lt_of_succ_lt hn)).2.2, o6C m c ⟨n + 1, hn⟩ h3 (outsAt0 c n (Nat.lt_of_succ_lt hn)).2.2,
          sC m c ⟨n + 1, hn⟩ h3 (outsAt0 c n (Nat.lt_of_succ_lt hn)).2.2)
      else
        (idle5, idle6, sB m c ⟨n + 1, hn⟩ h0 h3 (outsAt0 c n (Nat.lt_of_succ_lt hn)).2.2)

theorem outsAt0_A (c : Dev nD) (t : Fin cfg0.N) (h0 : t.val % 4 = 0) :
    outsAt0 m c t.val t.isLt = (idle5, idle6, sA m c t h0) := by
  obtain ⟨n, hn⟩ := t
  cases n with
  | zero => exact rfl
  | succ n => exact (dif_pos h0).trans rfl

theorem outsAt0_B (c : Dev nD) (t : Fin cfg0.N) (h0 : ¬t.val % 4 = 0) (h3 : ¬t.val % 4 = 3) :
    outsAt0 m c t.val t.isLt = (idle5, idle6, sB m c t h0 h3 (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h3).trans rfl)

theorem outsAt0_C (c : Dev nD) (t : Fin cfg0.N) (h3 : t.val % 4 = 3) :
    outsAt0 m c t.val t.isLt = (o5C m c t h3 (outsAt0 m c (t.val - 1) (Nat.lt_of_le_of_lt (Nat.sub_le _ _) t.isLt)).2.2,
      o6C m c t h3 (outsAt0 m c (t.val - 1) (Nat.lt_of_le_of_lt (Nat.sub_le _ _) t.isLt)).2.2,
      sC m c t h3 (outsAt0 m c (t.val - 1) (Nat.lt_of_le_of_lt (Nat.sub_le _ _) t.isLt)).2.2) := by
  obtain ⟨n, hn⟩ := t
  cases n with
  | zero => exact absurd ((Nat.zero_mod 4).symm.trans h3) (by decide)
  | succ n => exact (dif_neg (cC0 ⟨n + 1, hn⟩ h3)).trans ((dif_pos h3).trans rfl)

/-- The invariant before position `n`: before the first point what the launch hands over (the scratch column at
    anything); afterwards the scratch column at what the point before left, and the generator's register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The proof data -/

/-- The arrays as the kernel finds them; after the body at point `t` each input's buffer at its block, the result
    columns' and the invariant's scratch column at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point: the inputs' buffers hold their blocks; `t mod 4` says which case the point is in; the
    invariant hands the body the scratch column (at anything at the very first point, else at what the point before
    left) and takes it back at this point's contents; away from a last column block the result windows go back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 64 := lt_of_lt_of_eq t.isLt (show cfg0.N = 64 from N_0)
  by_cases h0 : t.val % 4 = 0
  · rw [Dat.leavesExact_idle (dats m 0 c) 5 t (idleAt0_5 t (cA2 t h0)) (noFlush0_5 t (cA2 t h0)),
      Dat.leavesExact_idle (dats m 0 c) 6 t (idleAt0_6 t (cA2 t h0)) (noFlush0_6 t (cA2 t h0))]
    rw [outsAt0_A m c t h0]
    unfold sA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0).2 Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (coverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0).2 Set.univ _)
      isplitl [H0]; · iexact H0
      isplitl [H1]; · iexact H1
      isplitl [HS0]; · iexists _; iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (coverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    by_cases h3 : t.val % 4 = 3
    · rw [show (dats m 0 c).leavesExact 5 t = owns (c : Thread nD τ) (ms0_5 t) fullShare ((dats m 0 c).after 5 t) from by
        unfold Dat.leavesExact; rw [liveAt0_5 t (cC2 t h3)], after0_5]
      rw [show (dats m 0 c).leavesExact 6 t = owns (c : Thread nD τ) (ms0_6 t) fullShare ((dats m 0 c).after 6 t) from by
        unfold Dat.leavesExact; rw [liveAt0_6 t (cC2 t h3)], after0_6]
      rw [outsAt0_C m c t h3]
      unfold o5C o6C sC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runC m c t h3 _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (coverSC m c t h3 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5C m c t h3 _)
      unfold owns; iexists _; isplitr
      swap; · iexact H6
      ipureintro; exact View.read_writes_of_cover _ _ _ _ _ (cover6C m c t h3 _)
    · rw [Dat.leavesExact_idle (dats m 0 c) 5 t (idleAt0_5 t (cB2 t h3)) (noFlush0_5 t (cB2 t h3)),
        Dat.leavesExact_idle (dats m 0 c) 6 t (idleAt0_6 t (cB2 t h3)) (noFlush0_6 t (cB2 t h3))]
      rw [outsAt0_B m c t h0 h3]
      unfold sB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runB m c t h0 h3 _).2 Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (coverB m c t h0 h3 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The launch theorem's obligation, at every point. -/
theorem body_obligation (c : Dev nD) : BodyObligation (dats (F := F) m 0 c) (defs₀ (F := F)) Variants.none () Set.univ := fun t => by
  rw [bigSep_W0, bigSep_W0]
  exact sound_body m c t

/-- What the launch hands the kernel is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed over: the scratch column's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters: every weakly fair execution of the program terminates without a fault, every
    array of the kernel ends at what the proof data computes, and every other buffer as the operations after the kernel leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end and its seven arguments end unchanged, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KiShared.lean ====
/-
  What the runs of this program's kernel share.

  The program is: 25 host operations (they build, from the seven arguments, the five arrays the kernel reads), ONE
  kernel launched on a 16 × 4 grid of points (row block i, column block j; point t has j = t mod 4), then 11 host
  operations that reduce the kernel's two result columns to three scalars.

  The kernel's body branches on j only:
    j = 0       the row-minimum of this column block is STORED into a scratch column,
    j > 0       the scratch column is replaced by its minimum with this block's row-minimum,
    j = 3       (after that) the two result columns are written from the scratch column and three input columns.
  So a point is in one of three cases — first (j = 0), middle (j = 1, 2), last (j = 3) —, the scratch column is CARRIED from
  each point to the next, and the two result windows are idle (untouched, not written back) except at the last case.

  Here: the memory the kernel is launched on (the arguments after the first 25 operations), that the seven arguments are
  written by no host operation, each window's block at a point, the three branch conditions in closed form over the grid,
  where the result windows are idle, and the invariant the launch hands the body (the scratch column owned at SOME contents).
-/
import proofs.«157631_g19645180411971_cont_sun_c4_111_6_alg».proof.Proof.Gen.KernelIdeal.Launch
import proofs.«157631_g19645180411971_cont_sun_c4_111_6_alg».proof.Proof.Gen.KernelIdeal.Skeleton
import proofs.«157631_g19645180411971_cont_sun_c4_111_6_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the kernel -/

/-- The buffers of core `c` when the kernel is launched: the launch memory after the 25 host operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the operations before the kernel, the kernel, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the kernel touch only buffers that are not private to the kernel. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array the kernel reads or writes: each writes only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, Finset.mem_singleton] <;> exact StableHlo.devRef_ne_of_ne (by decide)

/-- No host operation before the kernel writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation before the kernel writes argument 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, Finset.mem_singleton]
    repeat' apply And.intro
    all_goals exact StableHlo.devRef_ne_of_ne (by decide)))

/-- No host operation after the kernel writes argument 0, and it is no array of the kernel's: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the kernel writes argument 1, and it is no array of the kernel's: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the kernel writes argument 2, and it is no array of the kernel's: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the kernel writes argument 3, and it is no array of the kernel's: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the kernel writes argument 4, and it is no array of the kernel's: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the kernel writes argument 6, and it is no array of the kernel's: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with every array of the kernel at what the proof data computes and every other buffer as the
    operations after the kernel leave it: the seven arguments end as launched. Six are no array of the kernel's and
    are written by no host operation; the sixth argument (the manifold predictions) is the array of an INPUT window,
    which the kernel only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).1 4).trans (((dats 0 c).arrAt_in 4 rfl _).trans ((hA c 4).trans (V_main_arg5 m c))),
    ((h c).2 main_arg6 (Pipeline.mem_restRefs_of main_arg6 (by decide) (by decide))).trans (W_main_arg6 m dats c)⟩) h

/-! ## The body's three branch conditions, over the grid -/

/-- "This is the first column block" (j = 0), as the body computes it. -/
abbrev cond0_0 (i : grid0.Coords) : Prop := (Scalar.cmpi .ne (Scalar.extui (Scalar.cmpi .eq (BitVec.ofNat 32 (i 1).val) 0#32)) 0#32) = 1#1
/-- It holds at the points t with t mod 4 = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is a later column block" (j > 0), as the body computes it. -/
abbrev cond0_1 (i : grid0.Coords) : Prop := (Scalar.cmpi .ne (Scalar.extui (Scalar.cmpi .sgt (BitVec.ofNat 32 (i 1).val) 0#32)) 0#32) = 1#1
/-- It holds at the points t with t mod 4 ≠ 0. -/
theorem hcond0_1 : ∀ t : Fin cfg0.N, cond0_1 (grid0.coords t) ↔ ¬ t.val % 4 = 0 :=
  (by decide +kernel : ∀ t : Fin grid0.N, cond0_1 (grid0.coords t) ↔ ¬ t.val % 4 = 0)

/-- "This is the last column block" (j = 3), as the body computes it. -/
abbrev cond0_2 (i : grid0.Coords) : Prop := k0_cond3 i = 1#1
/-- It holds at the points t with t mod 4 = 3. -/
theorem hcond0_2 : ∀ t : Fin cfg0.N, cond0_2 (grid0.coords t) ↔ t.val % 4 = 3 :=
  (by decide +kernel : ∀ t : Fin grid0.N, cond0_2 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last column block the first result window is idle: nothing is stored into it, -/
theorem idleAt0_5 : ∀ t : Fin cfg0.N, ¬cond0_2 (grid0.coords t) → cfg0.idle 5 (grid0.coords t) = true := by decide +kernel
/-- and it is not written back there. -/
theorem noFlush0_5 : ∀ t : Fin cfg0.N, ¬cond0_2 (grid0.coords t) → (cfg0.win 5).flush t = false := by decide +kernel
/-- At the last column block it is live. -/
theorem liveAt0_5 : ∀ t : Fin cfg0.N, cond0_2 (grid0.coords t) → cfg0.idle 5 (grid0.coords t) = false := by decide +kernel
/-- The same for the second result window. -/
theorem idleAt0_6 : ∀ t : Fin cfg0.N, ¬cond0_2 (grid0.coords t) → cfg0.idle 6 (grid0.coords t) = true := by decide +kernel
theorem noFlush0_6 : ∀ t : Fin cfg0.N, ¬cond0_2 (grid0.coords t) → (cfg0.win 6).flush t = false := by decide +kernel
theorem liveAt0_6 : ∀ t : Fin cfg0.N, cond0_2 (grid0.coords t) → cfg0.idle 6 (grid0.coords t) = false := by decide +kernel

/-! ## The memory the body is called on -/

/-- Each window's current staging buffer at point `t`, and that it is a whole buffer. -/
abbrev ms0_0 (t : Fin cfg0.N) : Memref sig .tc .vmem S512x130 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S130x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The scratch column: a whole buffer of the kernel's own. -/
abbrev scM0_0 : Memref sig .tc .vmem S512x1 .f32 := Memref.whole cc0_scratch0
/-- The scratch column as a view: what it holds is stated through it. -/
abbrev VS0_0 : View sig .tc .vmem S512x1 .f32 := scM0_0.view
/-- One staging buffer of each result window, through which its contents are stated. -/
abbrev VO0_5 : View sig .tc .vmem S512x1 .f32 := (Memref.whole cc0_stg5_0 : Memref sig .tc .vmem S512x1 .f32).view
abbrev VO0_6 : View sig .tc .vmem S512x1 .f32 := (Memref.whole cc0_stg6_0 : Memref sig .tc .vmem S512x1 .f32).view

/-- What the launch hands the body besides the windows: the scratch column owned at SOME contents, and the
    generator's register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KiRuns.lean ====
/-
  The kernel's body, run once per case.

  On whole buffers — the two matrix blocks at given contents, the scratch column at anything (first case) or at the
  contents the point before left (middle and last case), and in the last case the three input columns at given contents
  and the two result columns at anything — the body runs to its end without a fault, leaves every buffer it only read as
  it was, and leaves each buffer it stored into holding its stores. Which stores those are is not transcribed: each list
  of pieces is whatever the symbolic run of the body finds, and the run's proof is the evidence.
-/
import proofs.«157631_g19645180411971_cont_sun_c4_111_6_alg».proof.Proof.KiShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST case (j = 0): the body loads the two matrix blocks, and stores this block's row-minimum into the scratch column. -/
noncomputable def kernelRun0_A (c : Dev nD) (i : grid0.Coords) (arg2 : Memref sig .tc .vmem S512x130 .bf16) (harg2 : arg2.IsWhole) (arg3 : Memref sig .tc .vmem S130x2048 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : cond0_0 i) (hc1 : ¬cond0_1 i) (hc2 : ¬cond0_2 i)
    (x0 : Vec F S512x130 .bf16) (x1 : Vec F S130x2048 .bf16) :
    { LS0 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__dist_loss_kernel i arg2 harg2 arg3 harg3 arg4 harg4 arg5 harg5 arg6 harg6 arg7 harg7 arg8 harg8 arg9 harg9) K } := by
  refine ⟨?_, fun E K => ?run⟩
  case run =>
    simp only [cc0__dist_loss_kernel_eq_skeleton]; unfold cc0__dist_loss_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE case (j = 1, 2): the body loads the two matrix blocks and the scratch column (at the contents `xs0` the point
    before left), and stores the minimum of the two back into the scratch column. -/
noncomputable def kernelRun0_B (c : Dev nD) (i : grid0.Coords) (arg2 : Memref sig .tc .vmem S512x130 .bf16) (harg2 : arg2.IsWhole) (arg3 : Memref sig .tc .vmem S130x2048 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : ¬cond0_0 i) (hc1 : cond0_1 i) (hc2 : ¬cond0_2 i)
    (x0 : Vec F S512x130 .bf16) (x1 : Vec F S130x2048 .bf16) (xs0 : Vec F S512x1 .f32) :
    { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg9 fullShare xs0
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__dist_loss_kernel i arg2 harg2 arg3 harg3 arg4 harg4 arg5 harg5 arg6 harg6 arg7 harg7 arg8 harg8 arg9 harg9) K } := by
  refine ⟨?_, fun E K => ?run⟩
  case run =>
    simp only [cc0__dist_loss_kernel_eq_skeleton]; unfold cc0__dist_loss_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 2000000 in
/-- LAST case (j = 3): as the middle case, and then the body loads the scratch column again, the three input columns
    (squared norms `x2`, predictions `x3`, manifold predictions `x4`) and the two result columns, and stores both results. -/
noncomputable def kernelRun0_C (c : Dev nD) (i : grid0.Coords) (arg2 : Memref sig .tc .vmem S512x130 .bf16) (harg2 : arg2.IsWhole) (arg3 : Memref sig .tc .vmem S130x2048 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)
    (hc0 : ¬cond0_0 i) (hc1 : cond0_1 i) (hc2 : cond0_2 i)
    (x0 : Vec F S512x130 .bf16) (x1 : Vec F S130x2048 .bf16) (x2 x3 x4 : Vec F S512x1 .f32) (xs0 : Vec F S512x1 .f32) :
    Σ' (L5 : List (View.Piece (Elt F) S512x1 .f32)) (L6 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E (cc0__dist_loss_kernel i arg2 harg2 arg3 harg3 arg4 harg4 arg5 harg5 arg6 harg6 arg7 harg7 arg8 harg8 arg9 harg9) K } := by
  refine ⟨?_, ?_, ?_, fun E K => ?run⟩
  case run =>
    simp only [cc0__dist_loss_kernel_eq_skeleton]; unfold cc0__dist_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.KiFrame.lean ====
/-
  The kernel's frame: it runs to its end on every core without a fault, and the seven arguments end unchanged.

  What each case of the body leaves in the scratch column and the result columns is read back from the stores the
  symbolic runs found (their pieces tile the 512 × 1 column, so they cover it). Point by point (`outsAt0`): at a first
  column block the scratch column holds that case's store; at a later one, that case's store computed FROM what the point
  before left there; the result columns are placeholders except at a last column block. The invariant carried between
  points (`PhiS`) owns the scratch column at exactly those contents. With the windows' input blocks found in their
  staging buffers at every point, each point's obligation is its case's run, and the launch theorem for a kernel with host
  operations around it and a tracked invariant gives the run of the whole program.
-/
import proofs.«157631_g19645180411971_cont_sun_c4_111_6_alg».proof.Proof.KiRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in (j = t mod 4) -/

theorem cA0 (t : Fin cfg0.N) (h0 : t.val % 4 = 0) : cond0_0 (grid0.coords t) := (hcond0_0 t).mpr h0
theorem cA1 (t : Fin cfg0.N) (h0 : t.val % 4 = 0) : ¬cond0_1 (grid0.coords t) := fun h => ((hcond0_1 t).mp h) h0
theorem cA2 (t : Fin cfg0.N) (h0 : t.val % 4 = 0) : ¬cond0_2 (grid0.coords t) := fun h => by
  have h3 := (hcond0_2 t).mp h; omega
theorem cB0 (t : Fin cfg0.N) (h0 : ¬t.val % 4 = 0) : ¬cond0_0 (grid0.coords t) := fun h => h0 ((hcond0_0 t).mp h)
theorem cB1 (t : Fin cfg0.N) (h0 : ¬t.val % 4 = 0) : cond0_1 (grid0.coords t) := (hcond0_1 t).mpr h0
theorem cB2 (t : Fin cfg0.N) (h3 : ¬t.val % 4 = 3) : ¬cond0_2 (grid0.coords t) := fun h => h3 ((hcond0_2 t).mp h)
theorem cC0 (t : Fin cfg0.N) (h3 : t.val % 4 = 3) : ¬t.val % 4 = 0 := by omega
theorem cC2 (t : Fin cfg0.N) (h3 : t.val % 4 = 3) : cond0_2 (grid0.coords t) := (hcond0_2 t).mpr h3

/-! ## Each case's run at a point, on the point's buffers and blocks -/

/-- The first case's run at point `t`. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cA0 t h0) (cA1 t h0) (cA2 t h0) (iblk m c 0 t) (iblk m c 1 t)
/-- The middle case's run at point `t`, from the scratch column's contents `xs0`. -/
abbrev runB (c : Dev nD) (t : Fin cfg0.N) (h0 : ¬t.val % 4 = 0) (h3 : ¬t.val % 4 = 3) (xs0 : Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cB0 t h0) (cB1 t h0) (cB2 t h3) (iblk m c 0 t) (iblk m c 1 t) xs0
/-- The last case's run at point `t`, from the scratch column's contents `xs0`. -/
abbrev runC (c : Dev nD) (t : Fin cfg0.N) (h3 : t.val % 4 = 3) (xs0 : Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cB0 t (cC0 t h3)) (cB1 t (cC0 t h3)) (cC2 t h3) (iblk m c 0 t) (iblk m c 1 t) (iblk m c 2 t) (iblk m c 3 t) (iblk m c 4 t) xs0

/-! ## What each case leaves -/

/-- The first case's stores into the scratch column cover it, -/
theorem coverA (c : Dev nD) (t : Fin cfg0.N) (h0 : t.val % 4 = 0) (y : S512x1.Idx) :
    ∃ pc ∈ (runA m c t h0).1, y ∈ pc.1.set :=
  View.cover_of_tiledL (runA m c t h0).1 S512x1.size (by sl_kernel_rfl) y
/-- and this is what they leave there. -/
def sA (c : Dev nD) (t : Fin cfg0.N) (h0 : t.val % 4 = 0) : Vec F S512x1 .f32 :=
  VS0_0.read (Elt F) (VS0_0.writes (Elt F) VS0_0.junk (runA m c t h0).1)

theorem coverB (c : Dev nD) (t : Fin cfg0.N) (h0 : ¬t.val % 4 = 0) (h3 : ¬t.val % 4 = 3) (xs0 : Vec F S512x1 .f32) (y : S512x1.Idx) :
    ∃ pc ∈ (runB m c t h0 h3 xs0).1, y ∈ pc.1.set :=
  View.cover_of_tiledL (runB m c t h0 h3 xs0).1 S512x1.size (by sl_kernel_rfl) y
/-- What the middle case leaves in the scratch column. -/
def sB (c : Dev nD) (t : Fin cfg0.N) (h0 : ¬t.val % 4 = 0) (h3 : ¬t.val % 4 = 3) (xs0 : Vec F S512x1 .f32) : Vec F S512x1 .f32 :=
  VS0_0.read (Elt F) (VS0_0.writes (Elt F) VS0_0.junk (runB m c t h0 h3 xs0).1)

theorem cover5C (c : Dev nD) (t : Fin cfg0.N) (h3 : t.val % 4 = 3) (xs0 : Vec F S512x1 .f32) (y : S512x1.Idx) :
    ∃ pc ∈ (runC m c t h3 xs0).1, y ∈ pc.1.set :=
  View.cover_of_tiledL (runC m c t h3 xs0).1 S512x1.size (by sl_kernel_rfl) y
theorem cover6C (c : Dev nD) (t : Fin cfg0.N) (h3 : t.val % 4 = 3) (xs0 : Vec F S512x1 .f32) (y : S512x1.Idx) :
    ∃ pc ∈ (runC m c t h3 xs0).2.1, y ∈ pc.1.set :=
  View.cover_of_tiledL (runC m c t h3 xs0).2.1 S512x1.size (by sl_kernel_rfl) y
theorem coverSC (c : Dev nD) (t : Fin cfg0.N) (h3 : t.val % 4 = 3) (xs0 : Vec F S512x1 .f32) (y : S512x1.Idx) :
    ∃ pc ∈ (runC m c t h3 xs0).2.2.1, y ∈ pc.1.set :=
  View.cover_of_tiledL (runC m c t h3 xs0).2.2.1 S512x1.size (by sl_kernel_rfl) y
/-- What the last case leaves in the first result column, -/
def o5C (c : Dev nD) (t : Fin cfg0.N) (h3 : t.val % 4 = 3) (xs0 : Vec F S512x1 .f32) : Vec F S512x1 .f32 :=
  VO0_5.read (Elt F) (VO0_5.writes (Elt F) VO0_5.junk (runC m c t h3 xs0).1)
/-- in the second result column, -/
def o6C (c : Dev nD) (t : Fin cfg0.N) (h3 : t.val % 4 = 3) (xs0 : Vec F S512x1 .f32) : Vec F S512x1 .f32 :=
  VO0_6.read (Elt F) (VO0_6.writes (Elt F) VO0_6.junk (runC m c t h3 xs0).2.1)
/-- and in the scratch column. -/
def sC (c : Dev nD) (t : Fin cfg0.N) (h3 : t.val % 4 = 3) (xs0 : Vec F S512x1 .f32) : Vec F S512x1 .f32 :=
  VS0_0.read (Elt F) (VS0_0.writes (Elt F) VS0_0.junk (runC m c t h3 xs0).2.2.1)

/-- A result column where nothing was stored: a placeholder nothing consults (the window is idle there). -/
def idle5 : Vec F S512x1 .f32 := VO0_5.read (Elt F) VO0_5.junk
def idle6 : Vec F S512x1 .f32 := VO0_6.read (Elt F) VO0_6.junk

/-! ## Point by point -/

/-- What the two result columns' staging buffers and the scratch column hold after the body at position `n`:
    the case of `n mod 4`, the later cases computed from what position `n − 1` left in the scratch column. -/
def outsAt0 (c : Dev nD) : (n : ℕ) → n < cfg0.N → Vec F S512x1 .f32 × Vec F S512x1 .f32 × Vec F S512x1 .f32
  | 0, hn => (idle5, idle6, sA m c ⟨0, hn⟩ (Nat.zero_mod _))
  | n + 1, hn =>
    if h0 : (n + 1) % 4 = 0 then
      (idle5, idle6, sA m c ⟨n + 1, hn⟩ h0)
    else
      if h3 : (n + 1) % 4 = 3 then
        (o5C m c ⟨n + 1, hn⟩ h3 (outsAt0 c n (Nat.lt_of_succ_lt hn)).2.2, o6C m c ⟨n + 1, hn⟩ h3 (outsAt0 c n (Nat.lt_of_succ_lt hn)).2.2,
          sC m c ⟨n + 1, hn⟩ h3 (outsAt0 c n (Nat.lt_of_succ_lt hn)).2.2)
      else
        (idle5, idle6, sB m c ⟨n + 1, hn⟩ h0 h3 (outsAt0 c n (Nat.lt_of_succ_lt hn)).2.2)

theorem outsAt0_A (c : Dev nD) (t : Fin cfg0.N) (h0 : t.val % 4 = 0) :
    outsAt0 m c t.val t.isLt = (idle5, idle6, sA m c t h0) := by
  obtain ⟨n, hn⟩ := t
  cases n with
  | zero => exact rfl
  | succ n => exact (dif_pos h0).trans rfl

theorem outsAt0_B (c : Dev nD) (t : Fin cfg0.N) (h0 : ¬t.val % 4 = 0) (h3 : ¬t.val % 4 = 3) :
    outsAt0 m c t.val t.isLt = (idle5, idle6, sB m c t h0 h3 (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h3).trans rfl)

theorem outsAt0_C (c : Dev nD) (t : Fin cfg0.N) (h3 : t.val % 4 = 3) :
    outsAt0 m c t.val t.isLt = (o5C m c t h3 (outsAt0 m c (t.val - 1) (Nat.lt_of_le_of_lt (Nat.sub_le _ _) t.isLt)).2.2,
      o6C m c t h3 (outsAt0 m c (t.val - 1) (Nat.lt_of_le_of_lt (Nat.sub_le _ _) t.isLt)).2.2,
      sC m c t h3 (outsAt0 m c (t.val - 1) (Nat.lt_of_le_of_lt (Nat.sub_le _ _) t.isLt)).2.2) := by
  obtain ⟨n, hn⟩ := t
  cases n with
  | zero => exact absurd ((Nat.zero_mod 4).symm.trans h3) (by decide)
  | succ n => exact (dif_neg (cC0 ⟨n + 1, hn⟩ h3)).trans ((dif_pos h3).trans rfl)

/-- The invariant before position `n`: before the first point what the launch hands over (the scratch column at
    anything); afterwards the scratch column at what the point before left, and the generator's register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The proof data -/

/-- The arrays as the kernel finds them; after the body at point `t` each input's buffer at its block, the result
    columns' and the invariant's scratch column at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 4800000 in
/-- The body at any point: the inputs' buffers hold their blocks; `t mod 4` says which case the point is in; the
    invariant hands the body the scratch column (at anything at the very first point, else at what the point before
    left) and takes it back at this point's contents; away from a last column block the result windows go back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4]
  have hN : t.val < 64 := lt_of_lt_of_eq t.isLt (show cfg0.N = 64 from N_0)
  by_cases h0 : t.val % 4 = 0
  · rw [Dat.leavesExact_idle (dats m 0 c) 5 t (idleAt0_5 t (cA2 t h0)) (noFlush0_5 t (cA2 t h0)),
      Dat.leavesExact_idle (dats m 0 c) 6 t (idleAt0_6 t (cA2 t h0)) (noFlush0_6 t (cA2 t h0))]
    rw [outsAt0_A m c t h0]
    unfold sA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0).2 Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (coverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0).2 Set.univ _)
      isplitl [H0]; · iexact H0
      isplitl [H1]; · iexact H1
      isplitl [HS0]; · iexists _; iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (coverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    by_cases h3 : t.val % 4 = 3
    · rw [show (dats m 0 c).leavesExact 5 t = owns (c : Thread nD τ) (ms0_5 t) fullShare ((dats m 0 c).after 5 t) from by
        unfold Dat.leavesExact; rw [liveAt0_5 t (cC2 t h3)], after0_5]
      rw [show (dats m 0 c).leavesExact 6 t = owns (c : Thread nD τ) (ms0_6 t) fullShare ((dats m 0 c).after 6 t) from by
        unfold Dat.leavesExact; rw [liveAt0_6 t (cC2 t h3)], after0_6]
      rw [outsAt0_C m c t h3]
      unfold o5C o6C sC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runC m c t h3 _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (coverSC m c t h3 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5C m c t h3 _)
      unfold owns; iexists _; isplitr
      swap; · iexact H6
      ipureintro; exact View.read_writes_of_cover _ _ _ _ _ (cover6C m c t h3 _)
    · rw [Dat.leavesExact_idle (dats m 0 c) 5 t (idleAt0_5 t (cB2 t h3)) (noFlush0_5 t (cB2 t h3)),
        Dat.leavesExact_idle (dats m 0 c) 6 t (idleAt0_6 t (cB2 t h3)) (noFlush0_6 t (cB2 t h3))]
      rw [outsAt0_B m c t h0 h3]
      unfold sB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runB m c t h0 h3 _).2 Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (coverB m c t h0 h3 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The launch theorem's obligation, at every point. -/
theorem body_obligation (c : Dev nD) : BodyObligation (dats (F := F) m 0 c) (defs₀ (F := F)) Variants.none () Set.univ := fun t => by
  rw [bigSep_W0, bigSep_W0]
  exact sound_body m c t

/-- What the launch hands the kernel is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed over: the scratch column's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters: every weakly fair execution of the program terminates without a fault, every
    array of the kernel ends at what the proof data computes, and every other buffer as the operations after the kernel leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end and its seven arguments end unchanged, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.Spec.lean ====
/-
  The mathematics both programs compute, stated once over plain index types.

  For points `p i` (8192 rows of 128 coordinates) and a cloud `q j` (8192 rows of 128 coordinates), the squared
  distance is  ‖p i‖² + ‖q j‖² − 2 ⟨p i, q j⟩ , and the quantity of interest per row is its minimum over `j`.

  * The reference forms the full matrix of squared distances and takes a row minimum: `refRowMin`.
  * The kernel contracts AUGMENTED rows  [−2·p i, 1, 1]  against AUGMENTED columns  [q j, ‖q j‖², ‖q j‖² − ‖q j‖²]
    (130 terms), takes the minimum over the columns in four blocks of 2048, and adds ‖p i‖² afterwards:
    `kerRowMin`.

  The two agree when every coordinate is a real number (no infinity): −2 distributes over the inner product,
  x − x = 0 for a real x, and adding a real constant commutes with a minimum. That equation is proved in
  the algebra module; here are only the definitions, over the extended reals.
-/
import Mathlib.Data.EReal.Basic
import Mathlib.Data.EReal.Operations
import Mathlib.Algebra.BigOperators.Fin
import Mathlib.Order.CompleteLattice.Basic

noncomputable section

namespace Cert.DistLoss

open scoped BigOperators

/-- The squared norm of row `i`: the sum of the squares of its 128 coordinates. -/
def sqNorm (x : Fin 8192 → Fin 128 → EReal) (i : Fin 8192) : EReal := ∑ d : Fin 128, x i d * x i d

/-- The inner product of row `i` of `p` with row `j` of `q`. -/
def inner (p q : Fin 8192 → Fin 128 → EReal) (i j : Fin 8192) : EReal := ∑ d : Fin 128, p i d * q j d

/-- The reference's squared distance: (‖p i‖² + ‖q j‖²) − 2 · ⟨p i, q j⟩. -/
def refDist (p q : Fin 8192 → Fin 128 → EReal) (i j : Fin 8192) : EReal :=
  (sqNorm p i + sqNorm q j) - 2 * inner p q i j

/-- The reference's row minimum of the squared distances. -/
def refRowMin (p q : Fin 8192 → Fin 128 → EReal) (i : Fin 8192) : EReal := ⨅ j : Fin 8192, refDist p q i j

/-- The augmented row of `p`: −2 times its 128 coordinates, then two ones. -/
def augRow (p : Fin 8192 → Fin 128 → EReal) (i : Fin 8192) (k : Fin 130) : EReal :=
  if h : k.val < 128 then (-2 : EReal) * p i ⟨k.val, h⟩ else 1

/-- The augmented column of `q`: its 128 coordinates, then ‖q j‖², then ‖q j‖² − ‖q j‖². -/
def augCol (q : Fin 8192 → Fin 128 → EReal) (k : Fin 130) (j : Fin 8192) : EReal :=
  if h : k.val < 128 then q j ⟨k.val, h⟩ else if k.val = 128 then sqNorm q j else sqNorm q j - sqNorm q j

/-- One entry of the kernel's product: the contraction of the augmented row against the augmented column. -/
def kerEntry (p q : Fin 8192 → Fin 128 → EReal) (i j : Fin 8192) : EReal := ∑ k : Fin 130, augRow p i k * augCol q k j

/-- Column `jj` of block `b` (four blocks of 2048 columns). -/
def colOf (b : Fin 4) (jj : Fin 2048) : Fin 8192 := ⟨b.val * 2048 + jj.val, by have := b.isLt; have := jj.isLt; omega⟩

/-- The kernel's row quantity: the minimum of the product's entries over the four blocks of columns, plus ‖p i‖². -/
def kerRowMin (p q : Fin 8192 → Fin 128 → EReal) (i : Fin 8192) : EReal :=
  (⨅ b : Fin 4, ⨅ jj : Fin 2048, kerEntry p q i (colOf b jj)) + sqNorm p i

end Cert.DistLoss

end
-- ==== Proof.SpecTail.lean ====
/-
  What both programs do with the row minimum, and how full arrays are read as rows.

  Per row `i`, with `d` the minimal squared distance and `e` the predicted value at the point:
      first term  = | √(|d| + ε) − |e| |        (ε the single-precision word nearest 1e-7, the same word in both programs)
      second term = | prediction at the i-th manifold point |
  and the three results are  mean(first) + λ · mean(second),  mean(first),  mean(second),
  a mean being the sum of the 8192 terms (from the zero word) divided by the word 8192.0.
  These are the same functions in both programs, so only the row minimum needs an argument.
-/
import Idealize.ShloMosaic.PureOps.Ideal
import Idealize.ShloMosaic.Lib.ValueIdx
import proofs.«157631_g19645180411971_cont_sun_c4_111_6_alg».proof.Proof.Spec

noncomputable section

namespace Cert.DistLoss

open Idealize.ShloMosaic Idealize.ShloMosaic.ValueIdx
open scoped BigOperators

/-- The absolute value on the extended reals: the larger of `x` and `−x`. -/
def eabs (x : EReal) : EReal := max x (-x)

/-- ε: the single-precision word 0x33D6BF95 (nearest to 1e-7), as an extended real. -/
def epsW : EReal := Ideal.ofBits .f32 0x33D6BF95#32
/-- The single-precision zero word, as an extended real. -/
def zeroW : EReal := Ideal.ofBits .f32 0x00000000#32
/-- The single-precision word of 8192.0, as an extended real. -/
def cntW : EReal := Ideal.ofBits .f32 0x46000000#32

/-- The first loss term of one row: | √(|d| + ε) − |e| |. -/
def firstTerm (d e : EReal) : EReal := eabs (Ideal.sqrt (eabs d + epsW) - eabs e)

/-- The mean of 8192 terms: their sum, started from the zero word, divided by the word 8192.0. -/
def meanOf (v : Fin 8192 → EReal) : EReal := Ideal.div (zeroW + ∑ i : Fin 8192, v i) cntW

/-- The loss: mean of the first terms plus λ times the mean of the second terms. -/
def lossOf (lam : EReal) (f s : Fin 8192 → EReal) : EReal := meanOf f + lam * meanOf s

/-- A full 8192 × 128 array read as rows of coordinates. -/
def rows (X : (⟨2, ![8192, 128]⟩ : Shape).Idx → EReal) : Fin 8192 → Fin 128 → EReal := fun i d => X (ix2 i d)

/-- A full 8192 × 1 array read as a column. -/
def col0 (Y : (⟨2, ![8192, 1]⟩ : Shape).Idx → EReal) : Fin 8192 → EReal := fun i => Y (ix2 i (0 : Fin 1))

/-- The first loss terms of all rows, from a row quantity `rm` and the column of predictions `PE`. -/
def firstVec (rm : Fin 8192 → EReal) (PE : (⟨2, ![8192, 1]⟩ : Shape).Idx → EReal) : Fin 8192 → EReal :=
  fun i => firstTerm (rm i) (col0 PE i)

/-- The second loss terms of all rows. -/
def secondVec (MP : (⟨2, ![8192, 1]⟩ : Shape).Idx → EReal) : Fin 8192 → EReal := fun i => eabs (col0 MP i)

end Cert.DistLoss

end
-- ==== Proof.KiTail.lean ====
/-
  The kernel's closing host operations as pure functions of its two result columns.

  A column of 8192 entries is summed over both of its axes from the zero word and divided by the word 8192.0:
  that is the shared mean of the column read row by row. The loss is the first mean plus the converted
  integer weight times the second mean.
-/
import proofs.«157631_g19645180411971_cont_sun_c4_111_6_alg».proof.KernelIdeal
import proofs.«157631_g19645180411971_cont_sun_c4_111_6_alg».proof.Proof.SpecTail
import Idealize.ShloMosaic.Lib.Pipeline.Value
import Idealize.ShloMosaic.Lib.ValueIdx
import Idealize.ShloMosaic.PureOps.Ideal.Laws

noncomputable section

namespace Cert.KernelIdeal.Tail

open Cert.KernelIdeal Cert.KernelIdeal.Facts₀ Cert.KernelIdeal.Facts Cert.DistLoss Idealize.ShloMosaic Idealize.ShloMosaic.ValueIdx
open scoped BigOperators

variable [Cert.KernelIdeal.Facts]

/-- The mean of a column: its sum over both axes from the zero word, divided by the word 8192.0. -/
def meanTail (Y : (⟨S8192x1, .f32⟩ : BufTy).Contents (Elt Ideal)) : (⟨S_, .f32⟩ : BufTy).Contents (Elt Ideal) :=
  Host.divf (Host.reduceAdd Y (constant (F := Ideal) S_ .f32 0x00000000#32) reducesTo_S8192x1_S_d0_1 h_S_)
    (constant (F := Ideal) S_ .f32 0x46000000#32)

/-- The loss: the mean of the first column plus the converted weight times the mean of the second. -/
def lossTail (FT MPA : (⟨S8192x1, .f32⟩ : BufTy).Contents (Elt Ideal)) (x6 : (⟨S_, .i32⟩ : BufTy).Contents (Elt Ideal)) :
    (⟨S_, .f32⟩ : BufTy).Contents (Elt Ideal) :=
  addf (F := Ideal) (meanTail FT) (mulf (F := Ideal) (sitofp (F := Ideal) .f32 x6) (meanTail MPA))

/-- The sum of a column over both axes, from the zero word, is the zero word plus the sum of its 8192 rows. -/
theorem reduceAdd_total (Y : (⟨S8192x1, .f32⟩ : BufTy).Contents (Elt Ideal)) (j : S_.Idx) :
    Host.reduceAdd Y (constant (F := Ideal) S_ .f32 0x00000000#32) reducesTo_S8192x1_S_d0_1 h_S_ j
      = zeroW + ∑ i : Fin 8192, col0 Y i := by
  simp only [Host.reduceAdd, Ideal.hostReduceAdd_def]
  rw [Ideal.hostReduceAdd_total reducesTo_S8192x1_S_d0_1 (fun b => b.elim0) Y _ j, sum_idx2]
  simp only [Fin.sum_univ_one]
  rfl

/-- The mean of a column, at the scalar's one index, is the shared mean of its rows. -/
theorem meanTail_apply (Y : (⟨S8192x1, .f32⟩ : BufTy).Contents (Elt Ideal)) (j : S_.Idx) :
    meanTail Y j = meanOf (col0 Y) := by
  unfold meanTail
  show FloatOps.hostDivf (Host.reduceAdd Y (constant (F := Ideal) S_ .f32 0x00000000#32) reducesTo_S8192x1_S_d0_1 h_S_ j)
    (constant (F := Ideal) S_ .f32 0x46000000#32 j) = _
  rw [reduceAdd_total]
  rfl

theorem meanTail_eq (Y : (⟨S8192x1, .f32⟩ : BufTy).Contents (Elt Ideal)) : meanTail Y = fun _ => meanOf (col0 Y) :=
  funext fun j => meanTail_apply Y j

theorem lossTail_eq (FT MPA : (⟨S8192x1, .f32⟩ : BufTy).Contents (Elt Ideal)) (x6 : (⟨S_, .i32⟩ : BufTy).Contents (Elt Ideal)) :
    lossTail FT MPA x6
      = fun _ => lossOf (FloatOps.sitofp (F := Ideal) .f32 (x6 ValueIdx.ix0)) (col0 FT) (col0 MPA) := by
  funext j
  obtain rfl := eq_ix0 j
  unfold lossTail
  show FloatOps.addf (F := Ideal) (φ := .f32) (meanTail FT ix0) (FloatOps.mulf (F := Ideal) (φ := .f32) (FloatOps.sitofp (F := Ideal) .f32 (x6 ix0)) (meanTail MPA ix0)) = _
  rw [meanTail_apply, meanTail_apply]
  rfl

end Cert.KernelIdeal.Tail

end
-- ==== Proof.KiFinal.lean ====
/-
  From the kernel's run to its three results.

  Each of the kernel's two result columns (8192 rows in sixteen blocks of 512) is written back once per row block, at
  the block's last column step; so after the run row r holds entry r mod 512 of what that step left. The operations
  after the kernel then form the means of the two columns and the loss.
-/
import proofs.«157631_g19645180411971_cont_sun_c4_111_6_alg».proof.Proof.KiFrame
import proofs.«157631_g19645180411971_cont_sun_c4_111_6_alg».proof.Proof.KiTail

set_option maxRecDepth 16384

noncomputable section

namespace Cert.KernelIdeal.Final

open Cert.KernelIdeal Cert.KernelIdeal.Gen Cert.KernelIdeal.Hand Cert.KernelIdeal.Tail
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The last column step of row `r`'s row block is a point of the grid. -/
theorem pt_lt (r : Nat) (h : r < 8192) : 4 * (r / 512) + 3 < cfg0.N := by
  rw [show cfg0.N = 64 from N_0]; omega

/-- What a point leaves depends on the point's number only. -/
theorem outsAt0_congr (c : Dev nD) (n n' : ℕ) (h : n = n') (hn : n < cfg0.N) (hn' : n' < cfg0.N) :
    outsAt0 m c n hn = outsAt0 m c n' hn' := by
  subst h; rfl

/-! ## The first result column, row by row -/

/-- The whole column: row `r` is entry `r mod 512` of what the last point of row block `r / 512` left. -/
def G5 (c : Dev nD) : S8192x1.Idx → EReal := fun y =>
  (outsAt0 m c (4 * ((y 0).val / 512) + 3) (pt_lt _ (idx2_lt0 y))).1
    (ix2 (⟨(y 0).val % 512, Nat.mod_lt _ (by decide)⟩ : Fin 512) (0 : Fin 1))

/-- The block index of the column's window: the row block on the first axis, nothing on the second. -/
theorem idx5 : ∀ t : Fin cfg0.N, win0_5.index t (0 : Fin 2) = t.val / 4 ∧ win0_5.index t (1 : Fin 2) = 0 :=
  (by decide +kernel : ∀ t : Fin grid0.N, _)

/-- At a last column block `t`, the column at row (t / 4) · 512 + r is entry `r` of what point `t` left. -/
theorem G5_at (c : Dev nD) (t : Fin cfg0.N) (h3 : t.val % 4 = 3) (j : S512x1.Idx) (y : S8192x1.Idx)
    (hy0 : (y 0).val = t.val / 4 * 512 + (j 0).val) :
    G5 m c y = (outsAt0 m c t.val t.isLt).1 j := by
  unfold G5
  have hj : (j 0).val < 512 := idx2_lt0 j
  have hj1 : (j 1).val < 1 := idx2_lt1 j
  have hn : 4 * ((y 0).val / 512) + 3 = t.val := by omega
  have hr : (y 0).val % 512 = (j 0).val := by omega
  have hidx : ix2 (⟨(y 0).val % 512, Nat.mod_lt _ (by decide)⟩ : Fin 512) (0 : Fin 1) = j := by
    funext a; apply Fin.ext
    match a with
    | ⟨0, _⟩ => exact hr
    | ⟨1, _⟩ => show 0 = (j 1).val; omega
  rw [hidx]
  exact congrArg (fun p => p.1 j) (outsAt0_congr m c _ _ hn _ _)

/-- What a last column block writes back is its block of the whole column. -/
theorem flushed5_eq (c : Dev nD) (t : Fin cfg0.N) (hf : (cfg0.win 5).flush t = true) :
    (dats m 0 c).flushed 5 t = ((cfg0.win 5).blk t).view.read (Elt Ideal) (G5 m c) := by
  have h3 : t.val % 4 = 3 := (flush0_5 t).mp hf
  obtain ⟨e0, e1⟩ := idx5 t
  show (cfg0.win 5).cut (grid0.coords t) ((dats m 0 c).after 5 t) = _
  rw [after0_5]
  funext j
  show (outsAt0 m c t.val t.isLt).1 j = G5 m c (((cfg0.win 5).blk t).view.emb j)
  refine (G5_at m c t h3 j (((cfg0.win 5).blk t).view.emb j) ?_).symm
  show win0_5.index t (0 : Fin 2) * 512 + 1 * (j 0).val = _
  rw [e0]; omega

/-- An index of the column is in point `t`'s block iff each coordinate is in the block's range on its axis. -/
theorem mem_blk5 (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v21_0).slice (win0_5.rect t)).set ↔ _
  rw [View.set_slice_whole, Rect.mem_set_unit]
  exact Iff.rfl

/-- Row `r` is in the block written back at the last point of row block `r / 512`. -/
theorem cover5 (i : S8192x1.Idx) :
    ∃ t : Fin cfg0.N, (cfg0.win 5).flush t = true ∧ i ∈ ((cfg0.win 5).blk t).view.set := by
  have hi0 : (i 0).val < 8192 := idx2_lt0 i
  have hi1 : (i 1).val < 1 := idx2_lt1 i
  refine ⟨⟨4 * ((i 0).val / 512) + 3, pt_lt _ hi0⟩, (flush0_5 _).mpr (show (4 * ((i 0).val / 512) + 3) % 4 = 3 by omega), ?_⟩
  obtain ⟨e0, e1⟩ := idx5 ⟨4 * ((i 0).val / 512) + 3, pt_lt _ hi0⟩
  have e0' : win0_5.index ⟨4 * ((i 0).val / 512) + 3, pt_lt _ hi0⟩ (0 : Fin 2) = (4 * ((i 0).val / 512) + 3) / 4 := e0
  rw [mem_blk5]
  intro a
  match a with
  | ⟨0, _⟩ =>
    show win0_5.index _ (0 : Fin 2) * 512 ≤ (i 0).val ∧ (i 0).val < win0_5.index _ (0 : Fin 2) * 512 + 512
    rw [e0']; omega
  | ⟨1, _⟩ =>
    show win0_5.index _ (1 : Fin 2) * 1 ≤ (i 1).val ∧ (i 1).val < win0_5.index _ (1 : Fin 2) * 1 + 1
    rw [e1]; omega

/-- So the column ends holding, row by row, what the last point of each row block left. -/
theorem final5_arr (c : Dev nD) : (dats m 0 c).arrAt 5 cfg0.N = G5 m c :=
  (dats m 0 c).arrAt_eq_of_cover 5 (G5 m c) (flushed5_eq m c) cover5

theorem final5 (c : Dev nD) (i : Fin 8192) :
    ((dats m 0 c).arrAt 5 cfg0.N : S8192x1.Idx → EReal) (ix2 i (0 : Fin 1))
      = (outsAt0 m c (4 * (i.val / 512) + 3) (pt_lt _ i.isLt)).1 (ix2 (⟨i.val % 512, Nat.mod_lt _ (by decide)⟩ : Fin 512) (0 : Fin 1)) := by
  rw [final5_arr]; rfl

/-! ## The second result column, row by row -/

/-- The whole column: row `r` is entry `r mod 512` of what the last point of row block `r / 512` left. -/
def G6 (c : Dev nD) : S8192x1.Idx → EReal := fun y =>
  (outsAt0 m c (4 * ((y 0).val / 512) + 3) (pt_lt _ (idx2_lt0 y))).2.1
    (ix2 (⟨(y 0).val % 512, Nat.mod_lt _ (by decide)⟩ : Fin 512) (0 : Fin 1))

/-- The block index of the column's window: the row block on the first axis, nothing on the second. -/
theorem idx6 : ∀ t : Fin cfg0.N, win0_6.index t (0 : Fin 2) = t.val / 4 ∧ win0_6.index t (1 : Fin 2) = 0 :=
  (by decide +kernel : ∀ t : Fin grid0.N, _)

/-- At a last column block `t`, the column at row (t / 4) · 512 + r is entry `r` of what point `t` left. -/
theorem G6_at (c : Dev nD) (t : Fin cfg0.N) (h3 : t.val % 4 = 3) (j : S512x1.Idx) (y : S8192x1.Idx)
    (hy0 : (y 0).val = t.val / 4 * 512 + (j 0).val) :
    G6 m c y = (outsAt0 m c t.val t.isLt).2.1 j := by
  unfold G6
  have hj : (j 0).val < 512 := idx2_lt0 j
  have hj1 : (j 1).val < 1 := idx2_lt1 j
  have hn : 4 * ((y 0).val / 512) + 3 = t.val := by omega
  have hr : (y 0).val % 512 = (j 0).val := by omega
  have hidx : ix2 (⟨(y 0).val % 512, Nat.mod_lt _ (by decide)⟩ : Fin 512) (0 : Fin 1) = j := by
    funext a; apply Fin.ext
    match a with
    | ⟨0, _⟩ => exact hr
    | ⟨1, _⟩ => show 0 = (j 1).val; omega
  rw [hidx]
  exact congrArg (fun p => p.2.1 j) (outsAt0_congr m c _ _ hn _ _)

/-- What a last column block writes back is its block of the whole column. -/
theorem flushed6_eq (c : Dev nD) (t : Fin cfg0.N) (hf : (cfg0.win 6).flush t = true) :
    (dats m 0 c).flushed 6 t = ((cfg0.win 6).blk t).view.read (Elt Ideal) (G6 m c) := by
  have h3 : t.val % 4 = 3 := (flush0_6 t).mp hf
  obtain ⟨e0, e1⟩ := idx6 t
  show (cfg0.win 6).cut (grid0.coords t) ((dats m 0 c).after 6 t) = _
  rw [after0_6]
  funext j
  show (outsAt0 m c t.val t.isLt).2.1 j = G6 m c (((cfg0.win 6).blk t).view.emb j)
  refine (G6_at m c t h3 j (((cfg0.win 6).blk t).view.emb j) ?_).symm
  show win0_6.index t (0 : Fin 2) * 512 + 1 * (j 0).val = _
  rw [e0]; omega

/-- An index of the column is in point `t`'s block iff each coordinate is in the block's range on its axis. -/
theorem mem_blk6 (t : Fin cfg0.N) (i : S8192x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v21_1).slice (win0_6.rect t)).set ↔ _
  rw [View.set_slice_whole, Rect.mem_set_unit]
  exact Iff.rfl

/-- Row `r` is in the block written back at the last point of row block `r / 512`. -/
theorem cover6 (i : S8192x1.Idx) :
    ∃ t : Fin cfg0.N, (cfg0.win 6).flush t = true ∧ i ∈ ((cfg0.win 6).blk t).view.set := by
  have hi0 : (i 0).val < 8192 := idx2_lt0 i
  have hi1 : (i 1).val < 1 := idx2_lt1 i
  refine ⟨⟨4 * ((i 0).val / 512) + 3, pt_lt _ hi0⟩, (flush0_6 _).mpr (show (4 * ((i 0).val / 512) + 3) % 4 = 3 by omega), ?_⟩
  obtain ⟨e0, e1⟩ := idx6 ⟨4 * ((i 0).val / 512) + 3, pt_lt _ hi0⟩
  have e0' : win0_6.index ⟨4 * ((i 0).val / 512) + 3, pt_lt _ hi0⟩ (0 : Fin 2) = (4 * ((i 0).val / 512) + 3) / 4 := e0
  rw [mem_blk6]
  intro a
  match a with
  | ⟨0, _⟩ =>
    show win0_6.index _ (0 : Fin 2) * 512 ≤ (i 0).val ∧ (i 0).val < win0_6.index _ (0 : Fin 2) * 512 + 512
    rw [e0']; omega
  | ⟨1, _⟩ =>
    show win0_6.index _ (1 : Fin 2) * 1 ≤ (i 1).val ∧ (i 1).val < win0_6.index _ (1 : Fin 2) * 1 + 1
    rw [e1]; omega

/-- So the column ends holding, row by row, what the last point of each row block left. -/
theorem final6_arr (c : Dev nD) : (dats m 0 c).arrAt 6 cfg0.N = G6 m c :=
  (dats m 0 c).arrAt_eq_of_cover 6 (G6 m c) (flushed6_eq m c) cover6

theorem final6 (c : Dev nD) (i : Fin 8192) :
    ((dats m 0 c).arrAt 6 cfg0.N : S8192x1.Idx → EReal) (ix2 i (0 : Fin 1))
      = (outsAt0 m c (4 * (i.val / 512) + 3) (pt_lt _ i.isLt)).2.1 (ix2 (⟨i.val % 512, Nat.mod_lt _ (by decide)⟩ : Fin 512) (0 : Fin 1)) := by
  rw [final6_arr]; rfl

/-! ## The operations after the kernel -/

/-- The first result column after the run, -/
abbrev FT (c : Dev nD) : (⟨S8192x1, .f32⟩ : BufTy).Contents (Elt Ideal) := (dats m 0 c).arrAt 5 cfg0.N
/-- the second, -/
abbrev MPA (c : Dev nD) : (⟨S8192x1, .f32⟩ : BufTy).Contents (Elt Ideal) := (dats m 0 c).arrAt 6 cfg0.N
/-- and the integer weight as launched. -/
abbrev a6 (c : Dev nD) : (⟨S_, .i32⟩ : BufTy).Contents (Elt Ideal) := m ((c.tc : Thread nD τ).loc main_arg6)

/-- After the kernel the first result column's buffer holds that column, -/
theorem read_v21_0 (c : Dev nD) :
    Pipeline.withArrays (cfgs 0).spec c (V0 m c) (fun w => (dats m 0 c).arrAt w (cfgs 0).N) (Proc.devRef .tc main_v21_0) = FT m c :=
  Pipeline.withArrays_arr spec0 launch0.win.arr_inj c _ _ 5
/-- the second's holds the second column, -/
theorem read_v21_1 (c : Dev nD) :
    Pipeline.withArrays (cfgs 0).spec c (V0 m c) (fun w => (dats m 0 c).arrAt w (cfgs 0).N) (Proc.devRef .tc main_v21_1) = MPA m c :=
  Pipeline.withArrays_arr spec0 launch0.win.arr_inj c _ _ 6
/-- and the integer weight, which no operation writes and which is no array of the kernel's, is as launched. -/
theorem read_arg6 (c : Dev nD) :
    Pipeline.withArrays (cfgs 0).spec c (V0 m c) (fun w => (dats m 0 c).arrAt w (cfgs 0).N) (Proc.devRef .tc main_arg6) = a6 m c :=
  (Pipeline.withArrays_of_ne _ c (V0 m c) _ main_arg6 (by exact (by decide : ∀ w, Pipeline.arrRef spec0 w ≠ main_arg6))).trans (V_main_arg6 m c)

/-- The second result: the mean of the first column. -/
theorem tail_v23 (c : Dev nD) :
    Pipeline.afterTail₀ cfgs (dats m) 0 (V0 m) [hostOps1] c main_v23 = meanTail (FT m c) := by
  unfold Pipeline.afterTail₀
  show StableHlo.after hostOps1 _ (Proc.devRef .tc main_v23) = _
  after_results
  rw [read_v21_0]
  rfl

/-- The third result: the mean of the second column. -/
theorem tail_v25 (c : Dev nD) :
    Pipeline.afterTail₀ cfgs (dats m) 0 (V0 m) [hostOps1] c main_v25 = meanTail (MPA m c) := by
  unfold Pipeline.afterTail₀
  show StableHlo.after hostOps1 _ (Proc.devRef .tc main_v25) = _
  after_results
  rw [read_v21_1]
  rfl

/-- The first result: the loss. -/
theorem tail_v28 (c : Dev nD) :
    Pipeline.afterTail₀ cfgs (dats m) 0 (V0 m) [hostOps1] c main_v28 = lossTail (FT m c) (MPA m c) (a6 m c) := by
  unfold Pipeline.afterTail₀
  show StableHlo.after hostOps1 _ (Proc.devRef .tc main_v28) = _
  after_results
  rw [read_v21_0, read_v21_1, read_arg6]
  rfl

/-! ## The run, read -/

/-- Every weakly fair execution of the program terminates without a fault with the three results at the loss and the two
    means of the kernel's result columns, and the seven arguments unchanged. -/
theorem kernel_results : θ_run defs (onTc (τ := τ) (main (F := Ideal))) ⟨m, fun _ => 0, ρ⟩ (fun r => ∀ c : Dev nD,
      r.2.mem ((c.tc : Thread nD τ).loc main_v28) = lossTail (FT m c) (MPA m c) (a6 m c)
      ∧ r.2.mem ((c.tc : Thread nD τ).loc main_v23) = meanTail (FT m c)
      ∧ r.2.mem ((c.tc : Thread nD τ).loc main_v25) = meanTail (MPA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v28 (Pipeline.mem_restRefs_of main_v28 (by decide) (by decide))).trans (tail_v28 m c),
    ((h c).2 main_v23 (Pipeline.mem_restRefs_of main_v23 (by decide) (by decide))).trans (tail_v23 m c),
    ((h c).2 main_v25 (Pipeline.mem_restRefs_of main_v25 (by decide) (by decide))).trans (tail_v25 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).1 4).trans (((dats m 0 c).arrAt_in 4 rfl _).trans ((A_eq m c 4).trans (V_main_arg5 m c))),
    ((h c).2 main_arg6 (Pipeline.mem_restRefs_of main_arg6 (by decide) (by decide))).trans (W_main_arg6 m (dats m) c)⟩)
    (run_main m ρ)

end Cert.KernelIdeal.Final

end
-- ==== Proof.KiPieces.lean ====
/-
  What the three cases of the kernel's body leave, as the body's arithmetic of the blocks it read.
-/
import proofs.«157631_g19645180411971_cont_sun_c4_111_6_alg».proof.Proof.KiFrame
import Idealize.ShloMosaic.Lib.Pipeline.Value

set_option maxRecDepth 16384

noncomputable section

namespace Cert.KernelIdeal.Pieces

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem hz : (![0, 0] : Fin 2 → Nat) = fun _ => 0 := funext fun a => by fin_cases a <;> rfl

/-! ## What each case's stores are, as the body's arithmetic of the blocks

Every store of the body writes a whole 512 × 1 column, and every load reads a whole buffer, so each found piece list is
ONE piece: the skeleton's payload of the buffers' contents. In the last case the scratch column is loaded again after
the minimum has been stored into it in the same point: that load reads back the stored column. -/

/-- First column block: the scratch column receives this block's row-minimum. -/
theorem sA_eq (c : Dev nD) (t : Fin cfg0.N) (h0 : t.val % 4 = 0) :
    sA m c t h0 = k0_pay2 (iblk m c 0 t) (iblk m c 1 t) := by
  unfold sA
  rw [View.read_writes_eq_canon _ _ _ (coverA m c t h0)]
  unfold runA kernelRun0_A
  dsimp only
  rw [View.canon_unit_zero hz]
  simp only [View.readAt_eq_ld, (hs0_0 t).read_unread, (hs0_1 t).read_unread,
    View.ld_unit_zero (S := S512x130) hz, View.ld_unit_zero (S := S130x2048) hz]

/-- A middle column block: the scratch column receives the minimum of its contents and this block's row-minimum. -/
theorem sB_eq (c : Dev nD) (t : Fin cfg0.N) (h0 : ¬t.val % 4 = 0) (h3 : ¬t.val % 4 = 3) (xs0 : Vec F S512x1 .f32) :
    sB m c t h0 h3 xs0 = k0_pay3 (iblk m c 0 t) (iblk m c 1 t) xs0 := by
  unfold sB
  rw [View.read_writes_eq_canon _ _ _ (coverB m c t h0 h3 xs0)]
  unfold runB kernelRun0_B
  dsimp only
  rw [View.canon_unit_zero hz]
  simp only [View.readAt_eq_ld, (hs0_0 t).read_unread, (hs0_1 t).read_unread, (Memref.isWhole_whole cc0_scratch0).read_unread,
    View.ld_unit_zero (S := S512x130) hz, View.ld_unit_zero (S := S130x2048) hz, View.ld_unit_zero (S := S512x1) hz]

/-- The last column block stores into the scratch column as a middle one does. -/
theorem sC_eq (c : Dev nD) (t : Fin cfg0.N) (h3 : t.val % 4 = 3) (xs0 : Vec F S512x1 .f32) :
    sC m c t h3 xs0 = k0_pay3 (iblk m c 0 t) (iblk m c 1 t) xs0 := by
  unfold sC
  rw [View.read_writes_eq_canon _ _ _ (coverSC m c t h3 xs0)]
  unfold runC kernelRun0_C
  dsimp only
  sl_unfold_words
  rw [View.canon_unit_zero hz]
  simp only [View.readAt_eq_ld, (hs0_0 t).read_unread, (hs0_1 t).read_unread, (hs0_2 t).read_unread, (hs0_3 t).read_unread, (hs0_4 t).read_unread, (Memref.isWhole_whole cc0_scratch0).read_unread,
    View.ld_unit_zero (S := S512x130) hz, View.ld_unit_zero (S := S130x2048) hz, View.ld_unit_zero (S := S512x1) hz]

/-- The last column block's first result column: the loss term of the scratch column AS JUST STORED (the reload reads
    the stored minimum back), the squared norms and the predictions. -/
theorem o5C_eq (c : Dev nD) (t : Fin cfg0.N) (h3 : t.val % 4 = 3) (xs0 : Vec F S512x1 .f32) :
    o5C m c t h3 xs0 = k0_pay4 (k0_pay3 (iblk m c 0 t) (iblk m c 1 t) xs0) (iblk m c 2 t) (iblk m c 3 t) := by
  unfold o5C
  rw [View.read_writes_eq_canon _ _ _ (cover5C m c t h3 xs0)]
  unfold runC kernelRun0_C
  dsimp only
  sl_unfold_words
  rw [View.canon_unit_zero hz, View.readCov_unit_zero (S := S512x1) _ hz]
  simp only [View.readAt_eq_ld, (hs0_0 t).read_unread, (hs0_1 t).read_unread, (hs0_2 t).read_unread, (hs0_3 t).read_unread, (hs0_4 t).read_unread, (Memref.isWhole_whole cc0_scratch0).read_unread,
    View.ld_unit_zero (S := S512x130) hz, View.ld_unit_zero (S := S130x2048) hz, View.ld_unit_zero (S := S512x1) hz]

/-- Its second result column: the absolute manifold predictions. -/
theorem o6C_eq (c : Dev nD) (t : Fin cfg0.N) (h3 : t.val % 4 = 3) (xs0 : Vec F S512x1 .f32) :
    o6C m c t h3 xs0 = k0_pay5 (iblk m c 4 t) := by
  unfold o6C
  rw [View.read_writes_eq_canon _ _ _ (cover6C m c t h3 xs0)]
  unfold runC kernelRun0_C
  dsimp only
  rw [View.canon_unit_zero hz]
  simp only [View.readAt_eq_ld, (hs0_0 t).read_unread, (hs0_1 t).read_unread, (hs0_2 t).read_unread, (hs0_3 t).read_unread, (hs0_4 t).read_unread, (Memref.isWhole_whole cc0_scratch0).read_unread,
    View.ld_unit_zero (S := S512x130) hz, View.ld_unit_zero (S := S130x2048) hz, View.ld_unit_zero (S := S512x1) hz]

end Cert.KernelIdeal.Pieces

end
-- ==== Proof.HostPre.lean ====
/-
  The host operations the kernel program performs before its grid runs, as pure functions, read entry by entry.

  From the points P (8192 rows of 128 coordinates) and the cloud Q (8192 rows of 128 coordinates) the program prepares
    * the column of squared norms of the points:  ‖p i‖² = Σ_d p i d · p i d  (a sum started from zero);
    * the augmented rows  [−2·p i, 1, 1]: the points scaled by −2, with two columns of ones appended (130 columns);
    * the augmented columns  [q j, ‖q j‖², ‖q j‖² − ‖q j‖²]: the cloud transposed, with the row of its squared norms
      and the row of that row minus itself appended (130 rows).
  With floats read as extended reals, a change of format is the identity, so each entry of these arrays is the
  corresponding entry of the mathematical augmented row or column.
-/
import proofs.«157631_g19645180411971_cont_sun_c4_111_6_alg».proof.KernelIdeal
import proofs.«157631_g19645180411971_cont_sun_c4_111_6_alg».proof.Proof.SpecTail
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.HostPre

open Idealize.ShloMosaic Idealize.ShloMosaic.ValueIdx Cert.DistLoss
open scoped BigOperators

variable [Facts]
open Facts₀ Facts

/-! ## The two literals -/

/-- The single-precision pattern 0xC0000000 is −2. -/
theorem ofBits_neg_two_f32 : Ideal.ofBits .f32 0xC0000000#32 = (-2 : EReal) := by
  have e : Ideal.ofBits .f32 0xC0000000#32 = ((-2 : ℝ) : EReal) := by
    simp [Ideal.ofBits, Ideal.ieee, -EReal.coe_mul, -EReal.coe_neg]; norm_num
  rw [e, EReal.coe_neg]; rfl

/-! ## The three staged arrays -/

/-- The column of squared norms of the points. -/
def aaOf (P : (⟨S8192x128, .f32⟩ : BufTy).Contents (Elt Ideal)) : (⟨S8192x1, .f32⟩ : BufTy).Contents (Elt Ideal) :=
  broadcastInDim S8192x1 ![0] bcast_S8192_S8192x1_0
    (Host.reduceAdd (mulf P P) (constant (F := Ideal) S_ .f32 0x00000000#32) reducesTo_S8192x128_S8192_d1 h_S_)

/-- The augmented rows: the points scaled by −2, then two columns of ones. -/
def aAugOf (P : (⟨S8192x128, .f32⟩ : BufTy).Contents (Elt Ideal)) : (⟨S8192x130, .bf16⟩ : BufTy).Contents (Elt Ideal) :=
  concatenate S8192x130 1
    [⟨S8192x128, truncf .bf16 (mulf (broadcastInDim S8192x128 ![] bcast_S_S8192x128 (constant (F := Ideal) S_ .f32 0xC0000000#32)) P) bitsLt_bf16_f32⟩,
     ⟨S8192x2, broadcastInDim S8192x2 ![] bcast_S_S8192x2 (constant (F := Ideal) S_ .bf16 0x3F80#16)⟩]
    concatenates_S8192x128_S8192x2_S8192x130_d1

/-- The row of squared norms of the cloud. -/
def qqOf (x2 : (⟨S8192x128, .f32⟩ : BufTy).Contents (Elt Ideal)) : (⟨S8192, .f32⟩ : BufTy).Contents (Elt Ideal) :=
  Host.reduceAdd (mulf x2 x2) (constant (F := Ideal) S_ .f32 0x00000000#32) reducesTo_S8192x128_S8192_d1 h_S_

/-- The augmented columns: the cloud transposed, then the row of squared norms, then that row minus itself. -/
def btAugOf (x2 : (⟨S8192x128, .f32⟩ : BufTy).Contents (Elt Ideal)) : (⟨S130x8192, .bf16⟩ : BufTy).Contents (Elt Ideal) :=
  concatenate S130x8192 0
    [⟨S128x8192, truncf (F := Ideal) .bf16 (transpose S128x8192 [1, 0] x2 transposes_S8192x128_S128x8192_1_0) bitsLt_bf16_f32⟩,
     ⟨S1x8192, broadcastInDim S1x8192 ![1] bcast_S8192_S1x8192_1 (truncf (F := Ideal) .bf16 (qqOf x2) bitsLt_bf16_f32)⟩,
     ⟨S1x8192, broadcastInDim S1x8192 ![1] bcast_S8192_S1x8192_1
        (truncf (F := Ideal) .bf16 (subf (F := Ideal) (qqOf x2)
          (extf (F := Ideal) .f32 (truncf (F := Ideal) .bf16 (qqOf x2) bitsLt_bf16_f32) bitsLt_bf16_f32)) bitsLt_bf16_f32)⟩]
    concatenates_S128x8192_S1x8192_S1x8192_S130x8192_d0

/-! ## Read entry by entry -/

/-- The host's sum of the squares along a row, started from zero, is the squared norm of the row. -/
theorem rowSum_apply (X : (⟨S8192x128, .f32⟩ : BufTy).Contents (Elt Ideal)) (i : Fin 8192) :
    Host.reduceAdd (mulf X X) (constant (F := Ideal) S_ .f32 0x00000000#32) reducesTo_S8192x128_S8192_d1 h_S_ (ix1 i)
      = sqNorm (rows X) i := by
  rw [hostReduceAdd_apply, Ideal.hostReduceAdd_single reducesTo_S8192x128_S8192_d1 (by decide), constant_apply,
    Ideal.ofBits_zero_f32, zero_add]
  refine Finset.sum_congr rfl fun k _ => ?_
  rw [mulf_apply]
  show X _ * X _ = X (ix2 i k) * X (ix2 i k)
  have e : ∀ (h : S8192x128.Reduces [1] S8192), h.lift (ix1 i) k = ix2 i k := fun h =>
    funext fun a => Fin.ext (by match a with | ⟨0, _⟩ => rfl | ⟨1, _⟩ => rfl)
  rw [e]
  rfl

theorem qqOf_apply (x2 : (⟨S8192x128, .f32⟩ : BufTy).Contents (Elt Ideal)) (j : Fin 8192) :
    qqOf x2 (ix1 j) = sqNorm (rows x2) j := rowSum_apply x2 j

/-- The column of squared norms, read at row `i`. -/
theorem aaOf_apply (P : (⟨S8192x128, .f32⟩ : BufTy).Contents (Elt Ideal)) (i : Fin 8192) :
    aaOf P (ix2 i (0 : Fin 1)) = sqNorm (rows P) i := by
  unfold aaOf
  rw [broadcastInDim_apply _ bcast_S8192_S8192x1_0 _ (ix2 i (0 : Fin 1)) (ix1 i) (fun a => match a with
    | ⟨0, _⟩ => by show i.val = if (8192 : Nat) = 1 then 0 else i.val; rw [if_neg (by decide)])]
  exact rowSum_apply P i

/-- A row of 8192 entries laid as a 1 × 8192 array, read at column `j`. -/
theorem bcastRow_apply (y : (⟨S8192, .bf16⟩ : BufTy).Contents (Elt Ideal)) (j : Fin 8192) :
    broadcastInDim S1x8192 ![1] bcast_S8192_S1x8192_1 y (ix2 (0 : Fin 1) j) = y (ix1 j) :=
  broadcastInDim_apply _ bcast_S8192_S1x8192_1 y (ix2 (0 : Fin 1) j) (ix1 j) (fun a => match a with
    | ⟨0, _⟩ => by show j.val = if (8192 : Nat) = 1 then 0 else j.val; rw [if_neg (by decide)])

/-- Two arrays joined along the columns (128 columns, then 2), read at row `i` and column `k`: the first array below
    column 128, the second at column `k − 128` from there on. -/
theorem concat_cols_apply (y0 : (⟨S8192x128, .bf16⟩ : BufTy).Contents (Elt Ideal))
    (y1 : (⟨S8192x2, .bf16⟩ : BufTy).Contents (Elt Ideal)) (i : Fin 8192) (k : Fin 130) :
    concatenate S8192x130 1 [⟨S8192x128, y0⟩, ⟨S8192x2, y1⟩] concatenates_S8192x128_S8192x2_S8192x130_d1 (ix2 i k)
      = if h : k.val < 128 then y0 (ix2 i (⟨k.val, h⟩ : Fin 128))
        else y1 (ix2 i (⟨k.val - 128, by have := k.isLt; omega⟩ : Fin 2)) := by
  have hk2 : k.val < 130 := k.isLt
  by_cases hk : k.val < 128
  · rw [dif_pos hk]
    exact concatenate_pair_apply_left (t := S8192x130) (1 : Fin 2) y0 y1 concatenates_S8192x128_S8192x2_S8192x130_d1
      (ix2 i k) rfl (ix2 i (⟨k.val, hk⟩ : Fin 128)) (fun b => match b with | ⟨0, _⟩ => rfl | ⟨1, _⟩ => rfl)
  · rw [dif_neg hk]
    exact concatenate_pair_apply_right (t := S8192x130) (1 : Fin 2) y0 y1 concatenates_S8192x128_S8192x2_S8192x130_d1
      (ix2 i k) rfl rfl (ix2 i (⟨k.val - 128, by omega⟩ : Fin 2))
      (fun b hb => match b, hb with | ⟨0, _⟩, _ => rfl | ⟨1, _⟩, hb => absurd rfl hb)
      (by show k.val - 128 + 128 = k.val; omega)

/-- Three arrays joined along the rows (128 rows, then 1, then 1), read at row `k` and column `j`. -/
theorem concat_rows_apply (y0 : (⟨S128x8192, .bf16⟩ : BufTy).Contents (Elt Ideal))
    (y1 y2 : (⟨S1x8192, .bf16⟩ : BufTy).Contents (Elt Ideal)) (k : Fin 130) (j : Fin 8192) :
    concatenate S130x8192 0 [⟨S128x8192, y0⟩, ⟨S1x8192, y1⟩, ⟨S1x8192, y2⟩]
        concatenates_S128x8192_S1x8192_S1x8192_S130x8192_d0 (ix2 k j)
      = if h : k.val < 128 then y0 (ix2 (⟨k.val, h⟩ : Fin 128) j)
        else if k.val = 128 then y1 (ix2 (0 : Fin 1) j) else y2 (ix2 (0 : Fin 1) j) := by
  have hk2 : k.val < 130 := k.isLt
  by_cases hk : k.val < 128
  · rw [dif_pos hk]
    exact concatenate_apply_piece (t := S130x8192) (0 : Fin 2) [⟨S128x8192, y0⟩, ⟨S1x8192, y1⟩, ⟨S1x8192, y2⟩]
      concatenates_S128x8192_S1x8192_S1x8192_S130x8192_d0 (ix2 k j) 0 (by show (0 : ℕ) < 3; omega) S128x8192 y0 rfl rfl 0 rfl
      (ix2 (⟨k.val, hk⟩ : Fin 128) j)
      (fun b hb => match b, hb with | ⟨0, _⟩, hb => absurd rfl hb | ⟨1, _⟩, _ => rfl)
      (by show 0 + k.val = k.val; omega)
  · rw [dif_neg hk]
    by_cases hk1 : k.val = 128
    · rw [if_pos hk1]
      exact concatenate_apply_piece (t := S130x8192) (0 : Fin 2) [⟨S128x8192, y0⟩, ⟨S1x8192, y1⟩, ⟨S1x8192, y2⟩]
        concatenates_S128x8192_S1x8192_S1x8192_S130x8192_d0 (ix2 k j) 1 (by show (1 : ℕ) < 3; omega) S1x8192 y1 rfl rfl 128 rfl
        (ix2 (0 : Fin 1) j)
        (fun b hb => match b, hb with | ⟨0, _⟩, hb => absurd rfl hb | ⟨1, _⟩, _ => rfl)
        (by show 128 + 0 = k.val; omega)
    · rw [if_neg hk1]
      exact concatenate_apply_piece (t := S130x8192) (0 : Fin 2) [⟨S128x8192, y0⟩, ⟨S1x8192, y1⟩, ⟨S1x8192, y2⟩]
        concatenates_S128x8192_S1x8192_S1x8192_S130x8192_d0 (ix2 k j) 2 (by show (2 : ℕ) < 3; omega) S1x8192 y2 rfl rfl 129 rfl
        (ix2 (0 : Fin 1) j)
        (fun b hb => match b, hb with | ⟨0, _⟩, hb => absurd rfl hb | ⟨1, _⟩, _ => rfl)
        (by show 129 + 0 = k.val; omega)

/-- The augmented rows, read at row `i` and column `k`. -/
theorem aAugOf_apply (P : (⟨S8192x128, .f32⟩ : BufTy).Contents (Elt Ideal)) (i : Fin 8192) (k : Fin 130) :
    aAugOf P (ix2 i k) = augRow (rows P) i k := by
  unfold aAugOf augRow
  rw [concat_cols_apply]
  by_cases hk : k.val < 128
  · rw [dif_pos hk, dif_pos hk, truncf_apply, mulf_apply, broadcastInDim_scalar_apply, constant_apply, ofBits_neg_two_f32]
    rfl
  · rw [dif_neg hk, dif_neg hk, broadcastInDim_scalar_apply, constant_apply, Ideal.ofBits_one_bf16]

/-- The augmented columns, read at row `k` and column `j`. -/
theorem btAugOf_apply (x2 : (⟨S8192x128, .f32⟩ : BufTy).Contents (Elt Ideal)) (k : Fin 130) (j : Fin 8192) :
    btAugOf x2 (ix2 k j) = augCol (rows x2) k j := by
  unfold btAugOf augCol
  rw [concat_rows_apply]
  by_cases hk : k.val < 128
  · rw [dif_pos hk, dif_pos hk, truncf_apply, transpose_ix2_apply]
    rfl
  · rw [dif_neg hk, dif_neg hk]
    by_cases hk1 : k.val = 128
    · rw [if_pos hk1, if_pos hk1, bcastRow_apply, truncf_apply, qqOf_apply]
    · rw [if_neg hk1, if_neg hk1, bcastRow_apply, truncf_apply, subf_apply, extf_apply, truncf_apply, qqOf_apply]

end Cert.KernelIdeal.HostPre

end
-- ==== Proof.KiBlocks.lean ====
/-
  The arrays the kernel is launched on, and each window's block at a grid point as a slice of its array.

  The grid has 16 × 4 points; point t has row block t / 4 and column block t mod 4. The augmented rows are read in
  blocks of 512 rows (all 130 columns), the augmented columns in blocks of 2048 columns (all 130 rows), and the three
  columns (squared norms, predictions at the points, predictions at the manifold points) in blocks of 512 rows.
  An entry of a block is the entry of the array at  block index × block extent + position inside the block.
-/
import proofs.«157631_g19645180411971_cont_sun_c4_111_6_alg».proof.Proof.KiShared
import proofs.«157631_g19645180411971_cont_sun_c4_111_6_alg».proof.Proof.SpecTail
import proofs.«157631_g19645180411971_cont_sun_c4_111_6_alg».proof.Proof.HostPre
import Idealize.ShloMosaic.Lib.ValueIdx
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Hand Cert.DistLoss
open Idealize.ShloMosaic Idealize.ShloMosaic.ValueIdx Idealize.SL.Sem

variable (m : (ℓ : Loc nD τ sig) → Buf (Elt Ideal) ℓ) (c : Dev nD)

/-! ## The block indices over the grid, decided once -/

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 4 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = t.val / 4 ∧ win0_3.index t (1 : Fin 2) = 0 :=
  (by decide +kernel : ∀ t : Fin grid0.N, _)
theorem idx4 : ∀ t : Fin cfg0.N, win0_4.index t (0 : Fin 2) = t.val / 4 ∧ win0_4.index t (1 : Fin 2) = 0 :=
  (by decide +kernel : ∀ t : Fin grid0.N, _)

/-- A point's row block is below 16, so a row of its block is a row of the array. -/
theorem row_lt (t : Fin cfg0.N) (r : Fin 512) : 512 * (t.val / 4) + r.val < 8192 := by
  have ht : t.val < 64 := N_0 ▸ t.isLt
  have hr := r.isLt
  omega

/-- A point's column block is below 4, so a column of its block is a column of the array. -/
theorem col_lt (t : Fin cfg0.N) (jj : Fin 2048) : 2048 * (t.val % 4) + jj.val < 8192 := by
  have hj := jj.isLt
  omega

/-! ## Each window's block, entry by entry -/

theorem iblk0_apply (t : Fin cfg0.N) (r : Fin 512) (k : Fin 130) :
    (iblk m c 0 t : S512x130.Idx → EReal) (ix2 r k)
      = (V m c main_v9 : S8192x130.Idx → EReal) (ix2 ⟨512 * (t.val / 4) + r.val, row_lt t r⟩ k) := by
  obtain ⟨e0, e1⟩ := idx0 t
  show V m c main_v9 (((cfg0.win 0).blk t).view.emb (ix2 r k)) = _
  refine congrArg _ (funext fun a => Fin.ext ?_)
  match a with
  | ⟨0, _⟩ => show win0_0.index t (0 : Fin 2) * 512 + 1 * r.val = 512 * (t.val / 4) + r.val; omega
  | ⟨1, _⟩ => show win0_0.index t (1 : Fin 2) * 130 + 1 * k.val = k.val; omega

theorem iblk1_apply (t : Fin cfg0.N) (k : Fin 130) (jj : Fin 2048) :
    (iblk m c 1 t : S130x2048.Idx → EReal) (ix2 k jj)
      = (V m c main_v20 : S130x8192.Idx → EReal) (ix2 k ⟨2048 * (t.val % 4) + jj.val, col_lt t jj⟩) := by
  obtain ⟨e0, e1⟩ := idx1 t
  show V m c main_v20 (((cfg0.win 1).blk t).view.emb (ix2 k jj)) = _
  refine congrArg _ (funext fun a => Fin.ext ?_)
  match a with
  | ⟨0, _⟩ => show win0_1.index t (0 : Fin 2) * 130 + 1 * k.val = k.val; omega
  | ⟨1, _⟩ => show win0_1.index t (1 : Fin 2) * 2048 + 1 * jj.val = 2048 * (t.val % 4) + jj.val; omega

theorem iblk2_apply (t : Fin cfg0.N) (r : Fin 512) :
    (iblk m c 2 t : S512x1.Idx → EReal) (ix2 r (0 : Fin 1))
      = (V m c main_v4 : S8192x1.Idx → EReal) (ix2 ⟨512 * (t.val / 4) + r.val, row_lt t r⟩ (0 : Fin 1)) := by
  obtain ⟨e0, e1⟩ := idx2 t
  show V m c main_v4 (((cfg0.win 2).blk t).view.emb (ix2 r (0 : Fin 1))) = _
  refine congrArg _ (funext fun a => Fin.ext ?_)
  match a with
  | ⟨0, _⟩ => show win0_2.index t (0 : Fin 2) * 512 + 1 * r.val = 512 * (t.val / 4) + r.val; omega
  | ⟨1, _⟩ => show win0_2.index t (1 : Fin 2) * 1 + 1 * 0 = 0; omega

theorem iblk3_apply (t : Fin cfg0.N) (r : Fin 512) :
    (iblk m c 3 t : S512x1.Idx → EReal) (ix2 r (0 : Fin 1))
      = (V m c main_v1 : S8192x1.Idx → EReal) (ix2 ⟨512 * (t.val / 4) + r.val, row_lt t r⟩ (0 : Fin 1)) := by
  obtain ⟨e0, e1⟩ := idx3 t
  show V m c main_v1 (((cfg0.win 3).blk t).view.emb (ix2 r (0 : Fin 1))) = _
  refine congrArg _ (funext fun a => Fin.ext ?_)
  match a with
  | ⟨0, _⟩ => show win0_3.index t (0 : Fin 2) * 512 + 1 * r.val = 512 * (t.val / 4) + r.val; omega
  | ⟨1, _⟩ => show win0_3.index t (1 : Fin 2) * 1 + 1 * 0 = 0; omega

theorem iblk4_apply (t : Fin cfg0.N) (r : Fin 512) :
    (iblk m c 4 t : S512x1.Idx → EReal) (ix2 r (0 : Fin 1))
      = (V m c main_arg5 : S8192x1.Idx → EReal) (ix2 ⟨512 * (t.val / 4) + r.val, row_lt t r⟩ (0 : Fin 1)) := by
  obtain ⟨e0, e1⟩ := idx4 t
  show V m c main_arg5 (((cfg0.win 4).blk t).view.emb (ix2 r (0 : Fin 1))) = _
  refine congrArg _ (funext fun a => Fin.ext ?_)
  match a with
  | ⟨0, _⟩ => show win0_4.index t (0 : Fin 2) * 512 + 1 * r.val = 512 * (t.val / 4) + r.val; omega
  | ⟨1, _⟩ => show win0_4.index t (1 : Fin 2) * 1 + 1 * 0 = 0; omega

/-! ## The arrays the kernel is launched on -/

/-- The points: the two halves joined along the rows. -/
abbrev Pk : S8192x128.Idx → EReal :=
  concatenate S8192x128 0 [⟨S4096x128, m ((c.tc : Thread nD τ).loc main_arg0)⟩, ⟨S4096x128, m ((c.tc : Thread nD τ).loc main_arg1)⟩]
    concatenates_S4096x128_S4096x128_S8192x128_d0

/-- The predictions at the points: the two halves joined along the rows. -/
abbrev PEk : S8192x1.Idx → EReal :=
  concatenate S8192x1 0 [⟨S4096x1, m ((c.tc : Thread nD τ).loc main_arg3)⟩, ⟨S4096x1, m ((c.tc : Thread nD τ).loc main_arg4)⟩]
    concatenates_S4096x1_S4096x1_S8192x1_d0

theorem V_v1 : (V m c main_v1 : S8192x1.Idx → EReal) = PEk m c := by
  dsimp only [V, V0]
  simp only [hostOps0, List.flatten_cons, List.flatten_nil, List.append_nil, List.cons_append, List.nil_append]
  after_results

theorem V_v4 : (V m c main_v4 : S8192x1.Idx → EReal) = HostPre.aaOf (Pk m c) := by
  dsimp only [V, V0]
  simp only [hostOps0, List.flatten_cons, List.flatten_nil, List.append_nil, List.cons_append, List.nil_append]
  after_results
  all_goals rfl

theorem V_v9 : (V m c main_v9 : S8192x130.Idx → EReal) = HostPre.aAugOf (Pk m c) := by
  dsimp only [V, V0]
  simp only [hostOps0, List.flatten_cons, List.flatten_nil, List.append_nil, List.cons_append, List.nil_append]
  after_results
  all_goals rfl

theorem V_v20 : (V m c main_v20 : S130x8192.Idx → EReal) = HostPre.btAugOf (m ((c.tc : Thread nD τ).loc main_arg2)) := by
  dsimp only [V, V0]
  simp only [hostOps0, List.flatten_cons, List.flatten_nil, List.append_nil, List.cons_append, List.nil_append]
  after_results
  all_goals rfl

end Cert.KernelIdeal.Blocks

end
-- ==== Proof.KiPay.lean ====
/-
  The kernel body's five payloads, read at one row.

  Row `r` of a block of 512 rows, against a block of 2048 columns:
    * the first payload is the minimum over the block's columns of the 130-term contraction of row `r` of the left
      operand with each column of the right one (the product into a zero accumulator, then the lane minimum from +∞,
      then a unit axis appended);
    * the second is the first again (a cast to the same shape);
    * the third is the minimum of the carried column and the first;
    * the fourth is | √(|a + b| + ε) − |e| | of three columns, the fifth |x| of one.
-/
import proofs.«157631_g19645180411971_cont_sun_c4_111_6_alg».proof.Proof.Gen.KernelIdeal.Skeleton
import proofs.«157631_g19645180411971_cont_sun_c4_111_6_alg».proof.Proof.SpecTail
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.DistLoss Idealize.ShloMosaic Idealize.ShloMosaic.ValueIdx
open scoped BigOperators

variable [Cert.KernelIdeal.Facts]

/-! ## General facts -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The fold of `min` from +∞ over all of `Fin n` is the infimum. -/
theorem fold_min_top_eq_iInf {n : ℕ} (f : Fin n → EReal) :
    (Finset.univ : Finset (Fin n)).fold min ⊤ f = ⨅ k, f k := by
  rw [← Finset.inf_univ_eq_iInf]
  rfl

/-- A float lane minimum over one axis, read at the ideal values: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The single-precision word of +∞ is the top of the extended reals. -/
theorem ofBits_inf_f32 : Ideal.ofBits .f32 0x7F800000#32 = ⊤ := by simp [Ideal.ofBits, Ideal.ieee]

/-! ## The product's operand indices -/

theorem lhs_row (i : S512x2048.Idx) (q : dot_S512x130_S130x2048_S512x2048_1_0_0_1_n_n.contr.Idx) :
    (dot_S512x130_S130x2048_S512x2048_1_0_0_1_n_n.lhsIdx i q 0).val = (i 0).val := by
  unfold DotDims.lhsIdx
  rw [dif_neg (show ¬(0 : Fin S512x130.rank) ∈ dot_S512x130_S130x2048_S512x2048_1_0_0_1_n_n.lhsBatch by decide), dif_pos (show (0 : Fin S512x130.rank) ∈ dot_S512x130_S130x2048_S512x2048_1_0_0_1_n_n.lhsNonContracting by decide)]
  rfl

theorem lhs_contr (i : S512x2048.Idx) (q : dot_S512x130_S130x2048_S512x2048_1_0_0_1_n_n.contr.Idx) :
    (dot_S512x130_S130x2048_S512x2048_1_0_0_1_n_n.lhsIdx i q 1).val = (q ⟨0, by decide⟩).val :=
  dot_S512x130_S130x2048_S512x2048_1_0_0_1_n_n.lhsIdx_val_of_single rfl i q

theorem rhs_contr (i : S512x2048.Idx) (q : dot_S512x130_S130x2048_S512x2048_1_0_0_1_n_n.contr.Idx) :
    (dot_S512x130_S130x2048_S512x2048_1_0_0_1_n_n.rhsIdx i q 0).val = (q ⟨0, by decide⟩).val :=
  dot_S512x130_S130x2048_S512x2048_1_0_0_1_n_n.rhsIdx_val_of_single rfl i q

theorem rhs_col (i : S512x2048.Idx) (q : dot_S512x130_S130x2048_S512x2048_1_0_0_1_n_n.contr.Idx) :
    (dot_S512x130_S130x2048_S512x2048_1_0_0_1_n_n.rhsIdx i q 1).val = (i 1).val := by
  unfold DotDims.rhsIdx
  rw [dif_neg (show ¬(1 : Fin S130x2048.rank) ∈ dot_S512x130_S130x2048_S512x2048_1_0_0_1_n_n.rhsBatch by decide), dif_pos (show (1 : Fin S130x2048.rank) ∈ dot_S512x130_S130x2048_S512x2048_1_0_0_1_n_n.rhsNonContracting by decide)]
  rfl

/-- The product into a zero accumulator, at row `r` and column `jj`: the 130-term contraction. -/
theorem matmul_row_col (x : FVec Ideal S512x130 .bf16) (y : FVec Ideal S130x2048 .bf16) (r : Fin 512) (jj : Fin 2048) :
    matmul (F := Ideal) (φ₁ := .bf16) (φ₂ := .bf16) dot_S512x130_S130x2048_S512x2048_1_0_0_1_n_n none x y (constant (F := Ideal) S512x2048 .f32 0x00000000#32) (ix2 r jj)
      = ∑ k : Fin 130, x (ix2 r k) * y (ix2 k jj) := by
  simp only [matmul]
  rw [Ideal.matmul_constant_zero_apply, ← Equiv.sum_comp (contrEquiv1 dot_S512x130_S130x2048_S512x2048_1_0_0_1_n_n 130 rfl rfl).symm]
  refine Finset.sum_congr rfl fun k _ => ?_
  have hk := contrEquiv1_symm_val dot_S512x130_S130x2048_S512x2048_1_0_0_1_n_n 130 rfl rfl k
  have el : dot_S512x130_S130x2048_S512x2048_1_0_0_1_n_n.lhsIdx (ix2 r jj) ((contrEquiv1 dot_S512x130_S130x2048_S512x2048_1_0_0_1_n_n 130 rfl rfl).symm k) = ix2 r k := funext fun a => Fin.ext (by
    match a with
    | ⟨0, _⟩ => exact lhs_row _ _
    | ⟨1, _⟩ => exact (lhs_contr _ _).trans hk)
  have er : dot_S512x130_S130x2048_S512x2048_1_0_0_1_n_n.rhsIdx (ix2 r jj) ((contrEquiv1 dot_S512x130_S130x2048_S512x2048_1_0_0_1_n_n 130 rfl rfl).symm k) = ix2 k jj := funext fun a => Fin.ext (by
    match a with
    | ⟨0, _⟩ => exact (rhs_contr _ _).trans hk
    | ⟨1, _⟩ => exact rhs_col _ _)
  rw [el, er]

/-- Row `r` with column `jj` put back on the reduced axis. -/
theorem lift_row (r : Fin 512) (jj : Fin 2048) :
    reduces_S512x2048_S512.lift (ix1 r) jj = ix2 r jj := by
  funext c
  apply Fin.ext
  match c with
  | ⟨0, _⟩ => rfl
  | ⟨1, _⟩ => rfl

/-- The product of the two blocks (each behind a cast to its own shape), read where the lane minimum reads it. -/
theorem matmul_at_lift (x : FVec Ideal S512x130 .bf16) (y : FVec Ideal S130x2048 .bf16) (r : Fin 512) (jj : Fin 2048) :
    matmul (F := Ideal) (φ₁ := .bf16) (φ₂ := .bf16) dot_S512x130_S130x2048_S512x2048_1_0_0_1_n_n none (shapeCast S512x130 x shapeCasts_S512x130_S512x130)
        (shapeCast S130x2048 y shapeCasts_S130x2048_S130x2048) (constant (F := Ideal) S512x2048 .f32 0x00000000#32)
        (reduces_S512x2048_S512.lift (ix1 r) jj)
      = ∑ k : Fin 130, x (ix2 r k) * y (ix2 k jj) := by
  rw [lift_row, shapeCast_self x, shapeCast_self y]
  exact matmul_row_col x y r jj

/-! ## The payloads -/

/-- The first payload: the minimum over the block's columns of the contraction. -/
theorem pay1_apply (v0 : Vec Ideal S512x130 .bf16) (v2 : Vec Ideal S130x2048 .bf16) (r : Fin 512) :
    k0_pay1 (F := Ideal) v0 v2 (ix2 r (0 : Fin 1)) = ⨅ jj : Fin 2048, ∑ k : Fin 130, v0 (ix2 r k) * v2 (ix2 k jj) := by
  unfold k0_pay1
  refine (shapeCast_a_a1_apply _ shapeCasts_S512_S512x1 r 0).trans ?_
  refine (multiReduction_minimumf_single _ _ reduces_S512x2048_S512 _ _ (ix1 r)).trans ?_
  rw [Ideal.ofBits_def, ofBits_inf_f32]
  refine (fold_min_top_eq_iInf (n := 2048) _).trans ?_
  refine iInf_congr fun jj => ?_
  exact matmul_at_lift v0 v2 r jj

/-- The second payload is the first (a cast to the same shape). -/
theorem pay2_apply (v0 : Vec Ideal S512x130 .bf16) (v2 : Vec Ideal S130x2048 .bf16) (r : Fin 512) :
    k0_pay2 (F := Ideal) v0 v2 (ix2 r (0 : Fin 1)) = k0_pay1 (F := Ideal) v0 v2 (ix2 r (0 : Fin 1)) :=
  congrFun (shapeCast_self (k0_pay1 (F := Ideal) v0 v2) shapeCasts_S512x1_S512x1) (ix2 r (0 : Fin 1))

/-- The third payload: the minimum of the carried column and the first payload. -/
theorem pay3_apply (v0 : Vec Ideal S512x130 .bf16) (v2 : Vec Ideal S130x2048 .bf16) (v16 : Vec Ideal S512x1 .f32) (r : Fin 512) :
    k0_pay3 (F := Ideal) v0 v2 v16 (ix2 r (0 : Fin 1))
      = min (v16 (ix2 r (0 : Fin 1))) (k0_pay1 (F := Ideal) v0 v2 (ix2 r (0 : Fin 1))) :=
  by
  unfold k0_pay3
  exact congrFun (shapeCast_self _ shapeCasts_S512x1_S512x1) (ix2 r (0 : Fin 1))

/-- The fourth payload: | √(|a + b| + ε) − |e| |. -/
theorem pay4_apply (v16 v17 v24 : Vec Ideal S512x1 .f32) (r : Fin 512) :
    k0_pay4 (F := Ideal) v16 v17 v24 (ix2 r (0 : Fin 1))
      = firstTerm (v16 (ix2 r (0 : Fin 1)) + v17 (ix2 r (0 : Fin 1))) (v24 (ix2 r (0 : Fin 1))) := by
  unfold k0_pay4
  rw [shapeCast_self v17, shapeCast_self v24]
  rfl

/-- The fifth payload: the absolute value. -/
theorem pay5_apply (v30 : Vec Ideal S512x1 .f32) (r : Fin 512) :
    k0_pay5 (F := Ideal) v30 (ix2 r (0 : Fin 1)) = eabs (v30 (ix2 r (0 : Fin 1))) := rfl

end Cert.KernelIdeal.Pay

end
-- ==== Proof.KiRow.lean ====
/-
  One block of 512 rows across the four column blocks.

  The kernel carries a column of 512 values through the four column blocks of 2048: after the first block it holds each
  row's minimum over that block, after each later block the minimum of what it held and that block's row minimum. A
  four-fold minimum of minima over blocks is the two-stage infimum over (block, column). At the last block the first
  result is | √(|m + ‖p‖²| + ε) − |e| | with `m` that infimum; when the left operand's rows are the augmented rows
  and the right operands' columns the augmented columns, `m + ‖p‖²` is the kernel's row quantity.
-/
import proofs.«157631_g19645180411971_cont_sun_c4_111_6_alg».proof.Proof.KiPay
import proofs.«157631_g19645180411971_cont_sun_c4_111_6_alg».proof.Proof.SpecTail
import proofs.«157631_g19645180411971_cont_sun_c4_111_6_alg».proof.Proof.Spec

noncomputable section

namespace Cert.KernelIdeal.Row

open Cert.KernelIdeal Cert.KernelIdeal.Gen Cert.KernelIdeal.Pay Cert.DistLoss Idealize.ShloMosaic Idealize.ShloMosaic.ValueIdx
open scoped BigOperators

variable [Cert.KernelIdeal.Facts]

/-- An infimum over four indices is the four-fold minimum, taken left to right. -/
theorem iInf_fin4 (f : Fin 4 → EReal) : (⨅ bb : Fin 4, f bb) = min (min (min (f 0) (f 1)) (f 2)) (f 3) := by
  apply le_antisymm
  · exact le_min (le_min (le_min (iInf_le f 0) (iInf_le f 1)) (iInf_le f 2)) (iInf_le f 3)
  · refine le_iInf fun bb => ?_
    match bb with
    | ⟨0, _⟩ => exact (min_le_left _ _).trans ((min_le_left _ _).trans (min_le_left _ _))
    | ⟨1, _⟩ => exact (min_le_left _ _).trans ((min_le_left _ _).trans (min_le_right _ _))
    | ⟨2, _⟩ => exact (min_le_left _ _).trans (min_le_right _ _)
    | ⟨3, _⟩ => exact min_le_right _ _

/-- The carried column after the four column blocks: the infimum over blocks and columns of the contraction. -/
theorem scratch4_apply (a : Vec Ideal S512x130 .bf16) (b : Fin 4 → Vec Ideal S130x2048 .bf16) (r : Fin 512) :
    k0_pay3 (F := Ideal) a (b 3) (k0_pay3 a (b 2) (k0_pay3 a (b 1) (k0_pay2 a (b 0)))) (ix2 r (0 : Fin 1))
      = ⨅ bb : Fin 4, ⨅ jj : Fin 2048, ∑ k : Fin 130, a (ix2 r k) * b bb (ix2 k jj) := by
  rw [pay3_apply, pay3_apply, pay3_apply, pay2_apply, pay1_apply a (b 0), pay1_apply a (b 1), pay1_apply a (b 2),
    pay1_apply a (b 3)]
  exact (iInf_fin4 (fun bb => ⨅ jj : Fin 2048, ∑ k : Fin 130, a (ix2 r k) * b bb (ix2 k jj))).symm

/-- The first result column at the last block, when the operands are the augmented rows and columns: the first loss
    term of the kernel's row quantity. -/
theorem first_row (a : Vec Ideal S512x130 .bf16) (b : Fin 4 → Vec Ideal S130x2048 .bf16) (aa pe : Vec Ideal S512x1 .f32)
    (p q : Fin 8192 → Fin 128 → EReal) (row : Fin 512 → Fin 8192)
    (ha : ∀ r k, a (ix2 r k) = augRow p (row r) k) (hb : ∀ bb k jj, b bb (ix2 k jj) = augCol q k (colOf bb jj))
    (haa : ∀ r, aa (ix2 r (0 : Fin 1)) = sqNorm p (row r)) (r : Fin 512) :
    k0_pay4 (F := Ideal) (k0_pay3 a (b 3) (k0_pay3 a (b 2) (k0_pay3 a (b 1) (k0_pay2 a (b 0))))) aa pe (ix2 r (0 : Fin 1))
      = firstTerm (kerRowMin p q (row r)) (pe (ix2 r (0 : Fin 1))) := by
  rw [pay4_apply, scratch4_apply, haa]
  have e : (⨅ bb : Fin 4, ⨅ jj : Fin 2048, ∑ k : Fin 130, a (ix2 r k) * b bb (ix2 k jj))
      = ⨅ bb : Fin 4, ⨅ jj : Fin 2048, kerEntry p q (row r) (colOf bb jj) :=
    iInf_congr fun bb => iInf_congr fun jj => by
      show _ = ∑ k : Fin 130, augRow p (row r) k * augCol q k (colOf bb jj)
      exact Finset.sum_congr rfl fun k _ => by rw [ha, hb]
  rw [e]
  rfl

/-- The second result column: the absolute value. -/
theorem second_row (mp : Vec Ideal S512x1 .f32) (r : Fin 512) :
    k0_pay5 (F := Ideal) mp (ix2 r (0 : Fin 1)) = eabs (mp (ix2 r (0 : Fin 1))) := pay5_apply mp r

end Cert.KernelIdeal.Row

end
-- ==== Proof.KiValue.lean ====
/-
  The kernel's two result columns, row by row.

  A block of 512 rows is visited at four consecutive grid points, one per block of 2048 columns. The carried column holds,
  after the first, the row minimum over the first column block, and after each later one the minimum with that block's
  row minimum; at the fourth the first result is written from it. The four visits read the SAME block of augmented rows,
  and their column blocks are the four quarters of the augmented columns, so the carried column ends at the minimum over
  all 8192 columns of the contraction, and the first result is the first loss term of the kernel's row quantity.
  The second result is the absolute value of the prediction at the manifold point.
-/
import proofs.«157631_g19645180411971_cont_sun_c4_111_6_alg».proof.Proof.KiPieces
import proofs.«157631_g19645180411971_cont_sun_c4_111_6_alg».proof.Proof.KiBlocks
import proofs.«157631_g19645180411971_cont_sun_c4_111_6_alg».proof.Proof.KiRow
import proofs.«157631_g19645180411971_cont_sun_c4_111_6_alg».proof.Proof.HostPre

set_option maxRecDepth 16384

noncomputable section

namespace Cert.KernelIdeal.Value2

open Cert.KernelIdeal Cert.KernelIdeal.Gen Cert.KernelIdeal.Hand Cert.KernelIdeal.Blocks Cert.KernelIdeal.HostPre Cert.DistLoss
open Idealize.ShloMosaic Idealize.ShloMosaic.ValueIdx Idealize.SL.Sem

variable (m : (ℓ : Loc nD τ sig) → Buf (Elt Ideal) ℓ) (c : Dev nD)

/-! ## Arithmetic of the grid -/

/-- The four points of row block `ib` are points of the grid. -/
theorem pt_lt (ib : Fin 16) (j : ℕ) (hj : j < 4) : 4 * ib.val + j < cfg0.N := by
  show _ < grid0.N
  rw [N_0]
  have := ib.isLt
  omega

/-- Row `r` of row block `ib` is a row of the array. -/
theorem rowi_lt (ib : Fin 16) (r : Fin 512) : 512 * ib.val + r.val < 8192 := by
  have := ib.isLt
  have := r.isLt
  omega

/-- The row of the array that row `r` of row block `ib` is. -/
abbrev rowOf (ib : Fin 16) (r : Fin 512) : Fin 8192 := ⟨512 * ib.val + r.val, rowi_lt ib r⟩

/-- Two arrays of two axes that agree at every pair of coordinates are equal. -/
theorem ext2 {n0 n1 : ℕ} {α : Type} (f g : (⟨2, ![n0, n1]⟩ : Shape).Idx → α) (h : ∀ i j, f (ix2 i j) = g (ix2 i j)) : f = g :=
  funext fun y => by rw [eq_ix2 y]; exact h _ _

/-! ## The carried column, unrolled over the four points of a row block -/

theorem outsAt0_congr {n n' : ℕ} (e : n = n') (h : n < cfg0.N) (h' : n' < cfg0.N) : outsAt0 m c n h = outsAt0 m c n' h' := by
  subst e; rfl

/-- What the fourth point of row block `ib` leaves: the two results and the carried column, computed from the carried column the
    three points before it built up. -/
theorem outs_last (ib : Fin 16) (h0 : 4 * ib.val + 0 < cfg0.N) (h1 : 4 * ib.val + 1 < cfg0.N) (h2 : 4 * ib.val + 2 < cfg0.N)
    (h3 : 4 * ib.val + 3 < cfg0.N)
    (e0 : (4 * ib.val + 0) % 4 = 0) (e1 : ¬(4 * ib.val + 1) % 4 = 0) (e1' : ¬(4 * ib.val + 1) % 4 = 3)
    (e2 : ¬(4 * ib.val + 2) % 4 = 0) (e2' : ¬(4 * ib.val + 2) % 4 = 3) (e3 : (4 * ib.val + 3) % 4 = 3) :
    outsAt0 m c (4 * ib.val + 3) h3
      = (o5C m c ⟨4 * ib.val + 3, h3⟩ e3 (sB m c ⟨4 * ib.val + 2, h2⟩ e2 e2' (sB m c ⟨4 * ib.val + 1, h1⟩ e1 e1' (sA m c ⟨4 * ib.val + 0, h0⟩ e0))),
         o6C m c ⟨4 * ib.val + 3, h3⟩ e3 (sB m c ⟨4 * ib.val + 2, h2⟩ e2 e2' (sB m c ⟨4 * ib.val + 1, h1⟩ e1 e1' (sA m c ⟨4 * ib.val + 0, h0⟩ e0))),
         sC m c ⟨4 * ib.val + 3, h3⟩ e3 (sB m c ⟨4 * ib.val + 2, h2⟩ e2 e2' (sB m c ⟨4 * ib.val + 1, h1⟩ e1 e1' (sA m c ⟨4 * ib.val + 0, h0⟩ e0)))) := by
  have E0 : (outsAt0 m c (4 * ib.val + 0) h0).2.2 = sA m c ⟨4 * ib.val + 0, h0⟩ e0 := by
    rw [show outsAt0 m c (4 * ib.val + 0) h0 = _ from outsAt0_A m c ⟨4 * ib.val + 0, h0⟩ e0]
  have E1 : (outsAt0 m c (4 * ib.val + 1) h1).2.2 = sB m c ⟨4 * ib.val + 1, h1⟩ e1 e1' (sA m c ⟨4 * ib.val + 0, h0⟩ e0) := by
    rw [show outsAt0 m c (4 * ib.val + 1) h1 = _ from outsAt0_B m c ⟨4 * ib.val + 1, h1⟩ e1 e1']
    show sB m c _ e1 e1' (outsAt0 m c (4 * ib.val + 1 - 1) _).2.2 = _
    rw [outsAt0_congr m c (show 4 * ib.val + 1 - 1 = 4 * ib.val + 0 by omega) _ h0, E0]
  have E2 : (outsAt0 m c (4 * ib.val + 2) h2).2.2
      = sB m c ⟨4 * ib.val + 2, h2⟩ e2 e2' (sB m c ⟨4 * ib.val + 1, h1⟩ e1 e1' (sA m c ⟨4 * ib.val + 0, h0⟩ e0)) := by
    rw [show outsAt0 m c (4 * ib.val + 2) h2 = _ from outsAt0_B m c ⟨4 * ib.val + 2, h2⟩ e2 e2']
    show sB m c _ e2 e2' (outsAt0 m c (4 * ib.val + 2 - 1) _).2.2 = _
    rw [outsAt0_congr m c (show 4 * ib.val + 2 - 1 = 4 * ib.val + 1 by omega) _ h1, E1]
  rw [show outsAt0 m c (4 * ib.val + 3) h3 = _ from outsAt0_C m c ⟨4 * ib.val + 3, h3⟩ e3]
  show (o5C m c _ e3 (outsAt0 m c (4 * ib.val + 3 - 1) _).2.2, o6C m c _ e3 (outsAt0 m c (4 * ib.val + 3 - 1) _).2.2,
    sC m c _ e3 (outsAt0 m c (4 * ib.val + 3 - 1) _).2.2) = _
  rw [outsAt0_congr m c (show 4 * ib.val + 3 - 1 = 4 * ib.val + 2 by omega) _ h2, E2]

/-! ## The blocks the four points read -/

/-- The four points of a row block read the same block of augmented rows. -/
theorem iblk0_same (ib : Fin 16) (j : ℕ) (hj : j < 4) (h : 4 * ib.val + j < cfg0.N) (h3 : 4 * ib.val + 3 < cfg0.N) :
    (iblk m c 0 ⟨4 * ib.val + j, h⟩ : S512x130.Idx → EReal) = (iblk m c 0 ⟨4 * ib.val + 3, h3⟩ : S512x130.Idx → EReal) :=
  ext2 _ _ fun r k => by
    rw [iblk0_apply, iblk0_apply]
    refine congrArg (V m c main_v9 : S8192x130.Idx → EReal) (congrArg (fun i => ix2 i k) (Fin.ext ?_))
    show 512 * ((4 * ib.val + j) / 4) + r.val = 512 * ((4 * ib.val + 3) / 4) + r.val
    omega

/-- That block is the block of augmented rows of the points. -/
theorem rowblk_apply (ib : Fin 16) (h3 : 4 * ib.val + 3 < cfg0.N) (r : Fin 512) (k : Fin 130) :
    (iblk m c 0 ⟨4 * ib.val + 3, h3⟩ : S512x130.Idx → EReal) (ix2 r k) = augRow (rows (Pk m c)) (rowOf ib r) k := by
  rw [iblk0_apply, V_v9, aAugOf_apply]
  refine congrArg (fun i => augRow (rows (Pk m c)) i k) (Fin.ext ?_)
  show 512 * ((4 * ib.val + 3) / 4) + r.val = 512 * ib.val + r.val
  omega

/-- The column block of point `4 ib + bb` is quarter `bb` of the augmented columns of the cloud. -/
theorem colblk_apply (ib : Fin 16) (bb : Fin 4) (h : 4 * ib.val + bb.val < cfg0.N) (k : Fin 130) (jj : Fin 2048) :
    (iblk m c 1 ⟨4 * ib.val + bb.val, h⟩ : S130x2048.Idx → EReal) (ix2 k jj)
      = augCol (rows (m ((c.tc : Thread nD τ).loc main_arg2))) k (colOf bb jj) := by
  rw [iblk1_apply, V_v20, btAugOf_apply]
  refine congrArg (fun i => augCol (rows (m ((c.tc : Thread nD τ).loc main_arg2))) k i) (Fin.ext ?_)
  show 2048 * ((4 * ib.val + bb.val) % 4) + jj.val = bb.val * 2048 + jj.val
  have := bb.isLt
  omega

/-- The block of squared norms is the squared norms of the points of the row block. -/
theorem aablk_apply (ib : Fin 16) (h3 : 4 * ib.val + 3 < cfg0.N) (r : Fin 512) :
    (iblk m c 2 ⟨4 * ib.val + 3, h3⟩ : S512x1.Idx → EReal) (ix2 r (0 : Fin 1)) = sqNorm (rows (Pk m c)) (rowOf ib r) := by
  rw [iblk2_apply, V_v4]
  refine Eq.trans ?_ (aaOf_apply (Pk m c) (rowOf ib r))
  refine congrArg (fun i => aaOf (Pk m c) (ix2 i (0 : Fin 1))) (Fin.ext ?_)
  show 512 * ((4 * ib.val + 3) / 4) + r.val = 512 * ib.val + r.val
  omega

/-- The block of predictions at the points. -/
theorem peblk_apply (ib : Fin 16) (h3 : 4 * ib.val + 3 < cfg0.N) (r : Fin 512) :
    (iblk m c 3 ⟨4 * ib.val + 3, h3⟩ : S512x1.Idx → EReal) (ix2 r (0 : Fin 1)) = col0 (PEk m c) (rowOf ib r) := by
  rw [iblk3_apply, V_v1]
  refine congrArg (fun i => PEk m c (ix2 i (0 : Fin 1))) (Fin.ext ?_)
  show 512 * ((4 * ib.val + 3) / 4) + r.val = 512 * ib.val + r.val
  omega

/-- The block of predictions at the manifold points. -/
theorem mpblk_apply (ib : Fin 16) (h3 : 4 * ib.val + 3 < cfg0.N) (r : Fin 512) :
    (iblk m c 4 ⟨4 * ib.val + 3, h3⟩ : S512x1.Idx → EReal) (ix2 r (0 : Fin 1))
      = col0 (m ((c.tc : Thread nD τ).loc main_arg5)) (rowOf ib r) := by
  rw [iblk4_apply, V_main_arg5]
  refine congrArg (fun i => m ((c.tc : Thread nD τ).loc main_arg5) (ix2 i (0 : Fin 1))) (Fin.ext ?_)
  show 512 * ((4 * ib.val + 3) / 4) + r.val = 512 * ib.val + r.val
  omega

/-! ## The two results -/

/-- The first result with the four row blocks named apart: they are one block. -/
theorem first_row4 (a0 a1 a2 a3 : Vec Ideal S512x130 .bf16) (ea0 : a0 = a3) (ea1 : a1 = a3) (ea2 : a2 = a3)
    (b : Fin 4 → Vec Ideal S130x2048 .bf16) (aa pe : Vec Ideal S512x1 .f32)
    (p q : Fin 8192 → Fin 128 → EReal) (row : Fin 512 → Fin 8192)
    (ha : ∀ r k, a3 (ix2 r k) = augRow p (row r) k) (hb : ∀ bb k jj, b bb (ix2 k jj) = augCol q k (colOf bb jj))
    (haa : ∀ r, aa (ix2 r (0 : Fin 1)) = sqNorm p (row r)) (r : Fin 512) :
    k0_pay4 (F := Ideal) (k0_pay3 a3 (b 3) (k0_pay3 a2 (b 2) (k0_pay3 a1 (b 1) (k0_pay2 a0 (b 0))))) aa pe (ix2 r (0 : Fin 1))
      = firstTerm (kerRowMin p q (row r)) (pe (ix2 r (0 : Fin 1))) := by
  subst ea0 ea1 ea2
  exact Row.first_row _ b aa pe p q row ha hb haa r

/-- THE FIRST RESULT at row `r` of row block `ib`: the first loss term of the kernel's row quantity. -/
theorem out5_row (ib : Fin 16) (r : Fin 512) (h3 : 4 * ib.val + 3 < cfg0.N) :
    (outsAt0 m c (4 * ib.val + 3) h3).1 (ix2 r (0 : Fin 1))
      = firstTerm (kerRowMin (rows (Pk m c)) (rows (m ((c.tc : Thread nD τ).loc main_arg2))) (rowOf ib r))
          (col0 (PEk m c) (rowOf ib r)) := by
  have hib := ib.isLt
  rw [outs_last m c ib (pt_lt ib 0 (by omega)) (pt_lt ib 1 (by omega)) (pt_lt ib 2 (by omega)) h3
    (by omega) (by omega) (by omega) (by omega) (by omega) (by omega)]
  dsimp only
  rw [Pieces.o5C_eq, Pieces.sB_eq, Pieces.sB_eq, Pieces.sA_eq, ← peblk_apply m c ib h3 r]
  exact first_row4 _ _ _ _ (iblk0_same m c ib 0 (by omega) _ h3) (iblk0_same m c ib 1 (by omega) _ h3)
    (iblk0_same m c ib 2 (by omega) _ h3)
    (fun bb => iblk m c 1 ⟨4 * ib.val + bb.val, pt_lt ib bb.val bb.isLt⟩) _ _ _ _ (rowOf ib)
    (rowblk_apply m c ib h3) (fun bb k jj => colblk_apply m c ib bb _ k jj) (aablk_apply m c ib h3) r

/-- THE SECOND RESULT at row `r` of row block `ib`: the absolute value of the prediction at the manifold point. -/
theorem out6_row (ib : Fin 16) (r : Fin 512) (h3 : 4 * ib.val + 3 < cfg0.N) :
    (outsAt0 m c (4 * ib.val + 3) h3).2.1 (ix2 r (0 : Fin 1))
      = eabs (col0 (m ((c.tc : Thread nD τ).loc main_arg5)) (rowOf ib r)) := by
  have hib := ib.isLt
  rw [outs_last m c ib (pt_lt ib 0 (by omega)) (pt_lt ib 1 (by omega)) (pt_lt ib 2 (by omega)) h3
    (by omega) (by omega) (by omega) (by omega) (by omega) (by omega)]
  dsimp only
  rw [Pieces.o6C_eq, ← mpblk_apply m c ib h3 r]
  exact Row.second_row _ r

end Cert.KernelIdeal.Value2

end
-- ==== Proof.RefSide.lean ====
/-
  The reference program's three results, read back as the shared row-wise formulas.

  Each operation of the reference is read at one index; the minimum over the columns is a fold of `min` from +∞,
  which is the infimum of the row; the sums over an axis of size one are their single term; the sums over all
  8192 rows are re-indexed by the row number. What is left is, term for term, the shared formulas' text.
-/
import proofs.«157631_g19645180411971_cont_sun_c4_111_6_alg».proof.Proof.ReadP
import proofs.«157631_g19645180411971_cont_sun_c4_111_6_alg».proof.Proof.SpecTail

noncomputable section

namespace Cert.ReferenceIdeal.RefValue

open Cert.ReferenceIdeal Cert.ReferenceIdeal.Gen Cert.DistLoss Idealize.ShloMosaic Idealize.ShloMosaic.ValueIdx
open scoped BigOperators

/-! ## Words and index sets -/

/-- The single-precision word 0x40000000 is the number 2. -/
theorem two_word : Ideal.ofBits .f32 0x40000000#32 = (2 : EReal) := by
  simp [Ideal.ofBits, Ideal.ieee, -EReal.coe_mul]; norm_num; rfl

/-- The single-precision word 0x7F800000 is +∞. -/
theorem inf_word : Ideal.ofBits .f32 0x7F800000#32 = (⊤ : EReal) := by
  simp [Ideal.ofBits, Ideal.ieee]

/-- A rank-1 index set is its one coordinate's range … -/
def idxEquiv1 {n : Nat} : Fin n ≃ (⟨1, ![n]⟩ : Shape).Idx where
  toFun := ix1
  invFun j := j 0
  left_inv _ := rfl
  right_inv j := (eq_ix1 j).symm

/-- … so a sum over it is the sum over the coordinate. -/
theorem sum_idx1 {n : Nat} (f : (⟨1, ![n]⟩ : Shape).Idx → EReal) : ∑ j, f j = ∑ i : Fin n, f (ix1 i) :=
  (Equiv.sum_comp idxEquiv1 f).symm

/-- Folding `min` from +∞ over all of `Fin n` is the infimum of the family. -/
theorem fold_min_top {n : Nat} (f : Fin n → EReal) :
    (Finset.univ : Finset (Fin n)).fold min ⊤ f = ⨅ k, f k := by
  rw [← Finset.inf_univ_eq_iInf]; rfl

/-! ## The minimum over the columns of a square array, row by row -/

theorem reduces_row : S8192x8192.Reduces [1] S8192 := by decide

/-- Row index `i` with column `k` put back is the entry (i, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- From +∞, the reduce with a minimum body over the columns is, at row `i`, the infimum of that row's entries. -/
theorem rowMin_read (x : FVec Ideal S8192x8192 .f32) (i : Fin 8192) :
    Host.reduce (FloatOps.minimumf (F := Ideal) (φ := .f32)) x (constant (F := Ideal) S_ .f32 0x7F800000#32) reducesTo_S8192x8192_S8192_d1 h_S_ (ix1 i)
      = ⨅ j : Fin 8192, x (ix2 i j) := by
  rw [Host.reduce_eq_fold_single FloatOps.minimumf x _ reducesTo_S8192x8192_S8192_d1 reduces_row h_S_]
  have hf : (x ∘ reduces_row.lift (ix1 i)) = fun k : Fin 8192 => x (ix2 i k) :=
    funext fun k => congrArg x (lift_row reduces_row i k)
  rw [hf]
  show Finset.fold min (Ideal.ofBits .f32 0x7F800000#32) _ _ = _
  rw [inf_word]
  exact fold_min_top _

/-! ## The indices the reference reads its operands at, by coordinates -/

theorem e3 (i j : Fin 8192) (k : Fin 128) :
    ReadP.idx_main_v3 (ReadP.idx_main_v4 (ReadP.idx_main_v8 (ix2 i j))) k = ix2 i k := by
  funext a; match a with | ⟨0, _⟩ => rfl | ⟨1, _⟩ => rfl
theorem e6 (i j : Fin 8192) (k : Fin 128) :
    ReadP.idx_main_v6 (ReadP.idx_main_v7 (ReadP.idx_main_v9 (ix2 i j))) k = ix2 j k := by
  funext a; match a with | ⟨0, _⟩ => rfl | ⟨1, _⟩ => rfl
theorem e12l (i j : Fin 8192) (k : Fin 128) : ReadP.lidx_main_v12 (ix2 i j) k = ix2 i k := by
  funext a; match a with | ⟨0, _⟩ => rfl | ⟨1, _⟩ => rfl
theorem e12r (i j : Fin 8192) (k : Fin 128) : ReadP.idx_main_v11 (ReadP.ridx_main_v12 (ix2 i j) k) = ix2 j k := by
  funext a; match a with | ⟨0, _⟩ => rfl | ⟨1, _⟩ => rfl
theorem e22 (i : Fin 8192) : ReadP.idx_main_v22 (ix1 i) 0 = ix2 i (0 : Fin 1) := by
  funext a; match a with | ⟨0, _⟩ => rfl | ⟨1, _⟩ => rfl
theorem e26 (i : Fin 8192) : ReadP.idx_main_v26 (ix1 i) 0 = ix2 i (0 : Fin 1) := by
  funext a; match a with | ⟨0, _⟩ => rfl | ⟨1, _⟩ => rfl

/-! ## The squared distances and their row minimum -/

/-- Entry (i, j) of the reference's matrix is the squared distance of point `i` to cloud point `j`. -/
theorem dist_entry (x0 x1 : (⟨S4096x128, .f32⟩ : BufTy).Contents (Elt Ideal)) (x2 : (⟨S8192x128, .f32⟩ : BufTy).Contents (Elt Ideal))
    (i j : Fin 8192) :
    ReadP.val_main_v15 (F := Ideal) x0 x1 x2 (ix2 i j) = refDist (rows (ReadP.val_main_v0 x0 x1)) (rows x2) i j := by
  rw [ReadP.val_main_v15_apply, ReadP.val_main_v10_apply, ReadP.val_main_v14_apply, ReadP.val_main_v8_apply, ReadP.val_main_v4_apply,
    ReadP.val_main_v3_apply, ReadP.val_main_v9_apply, ReadP.val_main_v7_apply, ReadP.val_main_v6_apply, ReadP.val_main_v13_apply,
    ReadP.val_main_cst_1_apply, ReadP.val_main_v12_apply, ReadP.val_main_cst_apply, ReadP.val_main_cst_0_apply]
  simp only [ReadP.val_main_v2_apply, ReadP.val_main_v5_apply, ReadP.val_main_v11_apply, Ideal.ofBits_def, Ideal.ofBits_zero_f32,
    zero_add, two_word, Ideal.subf_def, Ideal.addf_def, Ideal.mulf_def, e3, e6, e12l, e12r]
  rfl

/-- The reference's minimum over the columns, at row `i`, is the row minimum of the squared distances. -/
theorem rowMin_ref (x0 x1 : (⟨S4096x128, .f32⟩ : BufTy).Contents (Elt Ideal)) (x2 : (⟨S8192x128, .f32⟩ : BufTy).Contents (Elt Ideal))
    (i : Fin 8192) :
    ReadP.val_main_v16 (F := Ideal) x0 x1 x2 (ix1 i) = refRowMin (rows (ReadP.val_main_v0 x0 x1)) (rows x2) i := by
  unfold ReadP.val_main_v16 ReadP.val_main_cst_2
  rw [rowMin_read]
  unfold refRowMin
  exact iInf_congr fun j => dist_entry x0 x1 x2 i j

/-! ## The two loss terms, row by row -/

/-- The second loss term of row `i`. -/
theorem second_row (x5 : (⟨S8192x1, .f32⟩ : BufTy).Contents (Elt Ideal)) (i : Fin 8192) :
    ReadP.val_main_v26 (F := Ideal) x5 (ix1 i) = secondVec x5 i := by
  rw [ReadP.val_main_v26_apply, ReadP.val_main_cst_5_apply, Fin.sum_univ_one, ReadP.val_main_v25_apply, e26]
  simp only [Ideal.ofBits_def, Ideal.ofBits_zero_f32, zero_add, Ideal.hostAbsf_def, Ideal.absf_def]
  rfl

/-- The first loss term of row `i`. -/
theorem first_row (x0 x1 : (⟨S4096x128, .f32⟩ : BufTy).Contents (Elt Ideal)) (x2 : (⟨S8192x128, .f32⟩ : BufTy).Contents (Elt Ideal))
    (x3 x4 : (⟨S4096x1, .f32⟩ : BufTy).Contents (Elt Ideal)) (i : Fin 8192) :
    ReadP.val_main_v24 (F := Ideal) x0 x1 x2 x3 x4 (ix1 i)
      = firstVec (refRowMin (rows (ReadP.val_main_v0 x0 x1)) (rows x2)) (ReadP.val_main_v1 x3 x4) i := by
  rw [ReadP.val_main_v24_apply, ReadP.val_main_v23_apply, ReadP.val_main_v20_apply, ReadP.val_main_v19_apply,
    ReadP.val_main_v17_apply, ReadP.val_main_v18_apply, ReadP.val_main_cst_3_apply, ReadP.val_main_v22_apply,
    ReadP.val_main_cst_4_apply, Fin.sum_univ_one, ReadP.val_main_v21_apply, e22, rowMin_ref]
  simp only [Ideal.ofBits_def, Ideal.ofBits_zero_f32, zero_add, Ideal.hostAbsf_def, Ideal.absf_def, Ideal.subf_def,
    Ideal.addf_def, Ideal.hostUnary_sqrt_def]
  rfl

/-! ## The three results -/

/-- The third result: the mean of the second loss terms. -/
theorem ref_second (x5 : (⟨S8192x1, .f32⟩ : BufTy).Contents (Elt Ideal)) :
    ReadP.val_main_v37 (F := Ideal) x5 = fun _ => meanOf (secondVec x5) := by
  funext j
  rw [ReadP.val_main_v37_apply, ReadP.val_main_v36_apply, ReadP.val_main_cst_13_apply, ReadP.val_main_cst_12_apply, sum_idx1]
  simp only [Ideal.hostDivf_def, Ideal.ofBits_def, second_row]
  rfl

/-- The second result: the mean of the first loss terms. -/
theorem ref_first (x0 x1 : (⟨S4096x128, .f32⟩ : BufTy).Contents (Elt Ideal)) (x2 : (⟨S8192x128, .f32⟩ : BufTy).Contents (Elt Ideal))
    (x3 x4 : (⟨S4096x1, .f32⟩ : BufTy).Contents (Elt Ideal)) :
    ReadP.val_main_v35 (F := Ideal) x0 x1 x2 x3 x4
      = fun _ => meanOf (firstVec (refRowMin (rows (ReadP.val_main_v0 x0 x1)) (rows x2)) (ReadP.val_main_v1 x3 x4)) := by
  funext j
  rw [ReadP.val_main_v35_apply, ReadP.val_main_v34_apply, ReadP.val_main_cst_11_apply, ReadP.val_main_cst_10_apply, sum_idx1]
  simp only [Ideal.hostDivf_def, Ideal.ofBits_def, first_row]
  rfl

/-- The first result: the loss. -/
theorem ref_loss (x0 x1 : (⟨S4096x128, .f32⟩ : BufTy).Contents (Elt Ideal)) (x2 : (⟨S8192x128, .f32⟩ : BufTy).Contents (Elt Ideal))
    (x3 x4 : (⟨S4096x1, .f32⟩ : BufTy).Contents (Elt Ideal)) (x5 : (⟨S8192x1, .f32⟩ : BufTy).Contents (Elt Ideal))
    (x6 : (⟨S_, .i32⟩ : BufTy).Contents (Elt Ideal)) :
    ReadP.val_main_v33 (F := Ideal) x0 x1 x2 x3 x4 x5 x6
      = fun _ => lossOf (FloatOps.sitofp (F := Ideal) .f32 (x6 ValueIdx.ix0))
          (firstVec (refRowMin (rows (ReadP.val_main_v0 x0 x1)) (rows x2)) (ReadP.val_main_v1 x3 x4)) (secondVec x5) := by
  funext j
  obtain rfl := eq_ix0 j
  rw [ReadP.val_main_v33_apply, ReadP.val_main_v28_apply, ReadP.val_main_v27_apply, ReadP.val_main_cst_7_apply,
    ReadP.val_main_cst_6_apply, ReadP.val_main_v32_apply, ReadP.val_main_v31_apply, ReadP.val_main_v30_apply,
    ReadP.val_main_v29_apply, ReadP.val_main_cst_9_apply, ReadP.val_main_cst_8_apply, sum_idx1, sum_idx1]
  simp only [Ideal.hostDivf_def, Ideal.ofBits_def, Ideal.addf_def, Ideal.mulf_def, first_row, second_row]
  rfl

end Cert.ReferenceIdeal.RefValue

end
-- ==== Proof.Algebra.lean ====
/-
  The kernel's row quantity equals the reference's, when every coordinate is a real number.

  With real coordinates, write A i = ‖p i‖², B j = ‖q j‖², I i j = ⟨p i, q j⟩ (all real).
  * The 130-term contraction of [−2·p i, 1, 1] against [q j, B j, B j − B j] is
        Σ_d (−2 p i d) q j d + 1·B j + 1·(B j − B j) = B j − 2 I i j .
  * The reference's entry is (A i + B j) − 2 I i j = (B j − 2 I i j) + A i .
  * The columns of the four blocks of 2048 are exactly the 8192 columns, so the two-stage minimum is the
    minimum over all columns.
  * Adding a real constant is an order isomorphism of the extended reals (its inverse subtracts the constant),
    so it commutes with a minimum.
-/
import proofs.«157631_g19645180411971_cont_sun_c4_111_6_alg».proof.Proof.Spec
import Mathlib.Tactic.Ring
import Mathlib.Tactic.Linarith

noncomputable section

namespace Cert.DistLoss

open scoped BigOperators

/-- A finite sum of real numbers, read in the extended reals, is the sum of the readings. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The squared norm of a row of real numbers is a real number. -/
theorem sqNorm_coe (P : Fin 8192 → Fin 128 → ℝ) (i : Fin 8192) :
    sqNorm (fun i d => ((P i d : ℝ) : EReal)) i = ((∑ d : Fin 128, P i d * P i d : ℝ) : EReal) := by
  unfold sqNorm
  simp only [← EReal.coe_mul]
  exact coe_finset_sum _ _

/-- The inner product of two rows of real numbers is a real number. -/
theorem inner_coe (P Q : Fin 8192 → Fin 128 → ℝ) (i j : Fin 8192) :
    inner (fun i d => ((P i d : ℝ) : EReal)) (fun j d => ((Q j d : ℝ) : EReal)) i j
      = ((∑ d : Fin 128, P i d * Q j d : ℝ) : EReal) := by
  unfold inner
  simp only [← EReal.coe_mul]
  exact coe_finset_sum _ _

/-- A sum of 130 terms is the sum of the first 128 plus the two last. -/
theorem sum_fin130 {M : Type*} [AddCommMonoid M] (f : Fin 130 → M) :
    ∑ k, f k = (∑ d : Fin 128, f ⟨d.val, by omega⟩) + f ⟨128, by omega⟩ + f ⟨129, by omega⟩ := by
  rw [Fin.sum_univ_castSucc, Fin.sum_univ_castSucc]
  rfl

theorem two_eq_coe : (2 : EReal) = ((2 : ℝ) : EReal) := by norm_cast
theorem neg_two_eq_coe : (-2 : EReal) = ((-2 : ℝ) : EReal) := by rw [EReal.coe_neg, ← two_eq_coe]
theorem one_eq_coe : (1 : EReal) = ((1 : ℝ) : EReal) := by norm_cast

/-- The first 128 entries of the augmented row are −2 times the coordinates. -/
theorem augRow_lo (p : Fin 8192 → Fin 128 → EReal) (i : Fin 8192) (d : Fin 128) :
    augRow p i ⟨d.val, by omega⟩ = (-2 : EReal) * p i d := by
  have h : (⟨d.val, by omega⟩ : Fin 130).val < 128 := d.isLt
  unfold augRow
  rw [dif_pos h]

/-- The two last entries of the augmented row are ones. -/
theorem augRow_128 (p : Fin 8192 → Fin 128 → EReal) (i : Fin 8192) :
    augRow p i ⟨128, by omega⟩ = 1 := by
  unfold augRow
  rw [dif_neg (by simp)]

theorem augRow_129 (p : Fin 8192 → Fin 128 → EReal) (i : Fin 8192) :
    augRow p i ⟨129, by omega⟩ = 1 := by
  unfold augRow
  rw [dif_neg (by simp)]

/-- The first 128 entries of the augmented column are the coordinates. -/
theorem augCol_lo (q : Fin 8192 → Fin 128 → EReal) (j : Fin 8192) (d : Fin 128) :
    augCol q ⟨d.val, by omega⟩ j = q j d := by
  have h : (⟨d.val, by omega⟩ : Fin 130).val < 128 := d.isLt
  unfold augCol
  rw [dif_pos h]

/-- Entry 128 of the augmented column is the squared norm. -/
theorem augCol_128 (q : Fin 8192 → Fin 128 → EReal) (j : Fin 8192) :
    augCol q ⟨128, by omega⟩ j = sqNorm q j := by
  unfold augCol
  rw [dif_neg (by simp), if_pos rfl]

/-- Entry 129 of the augmented column is the squared norm minus itself. -/
theorem augCol_129 (q : Fin 8192 → Fin 128 → EReal) (j : Fin 8192) :
    augCol q ⟨129, by omega⟩ j = sqNorm q j - sqNorm q j := by
  unfold augCol
  rw [dif_neg (by simp), if_neg (by simp)]

/-- The kernel's entry with real coordinates: ‖q j‖² − 2 ⟨p i, q j⟩. -/
theorem kerEntry_coe (P Q : Fin 8192 → Fin 128 → ℝ) (i j : Fin 8192) :
    kerEntry (fun i d => ((P i d : ℝ) : EReal)) (fun j d => ((Q j d : ℝ) : EReal)) i j
      = (((∑ d : Fin 128, Q j d * Q j d) - 2 * ∑ d : Fin 128, P i d * Q j d : ℝ) : EReal) := by
  unfold kerEntry
  rw [sum_fin130]
  simp only [augRow_lo, augRow_128, augRow_129, augCol_lo, augCol_128, augCol_129]
  rw [sqNorm_coe]
  simp only [neg_two_eq_coe, one_eq_coe, ← EReal.coe_mul, ← EReal.coe_sub]
  rw [coe_finset_sum, ← EReal.coe_add, ← EReal.coe_add]
  have hs : ∑ d : Fin 128, -2 * P i d * Q j d = -2 * ∑ d : Fin 128, P i d * Q j d := by
    rw [Finset.mul_sum]
    exact Finset.sum_congr rfl (fun d _ => by ring)
  rw [hs]
  congr 1
  ring

/-- The reference's entry with real coordinates: (‖p i‖² + ‖q j‖²) − 2 ⟨p i, q j⟩. -/
theorem refDist_coe (P Q : Fin 8192 → Fin 128 → ℝ) (i j : Fin 8192) :
    refDist (fun i d => ((P i d : ℝ) : EReal)) (fun j d => ((Q j d : ℝ) : EReal)) i j
      = ((((∑ d : Fin 128, P i d * P i d) + ∑ d : Fin 128, Q j d * Q j d)
            - 2 * ∑ d : Fin 128, P i d * Q j d : ℝ) : EReal) := by
  unfold refDist
  rw [sqNorm_coe, sqNorm_coe, inner_coe, two_eq_coe, ← EReal.coe_add, ← EReal.coe_mul, ← EReal.coe_sub]

/-- The columns of the four blocks are all the columns: a two-stage minimum is the minimum over all columns. -/
theorem iInf_blocks (F : Fin 8192 → EReal) :
    (⨅ b : Fin 4, ⨅ jj : Fin 2048, F (colOf b jj)) = ⨅ j : Fin 8192, F j := by
  apply le_antisymm
  · refine le_iInf fun j => ?_
    have h1 : j.val / 2048 < 4 := by have := j.isLt; omega
    have h2 : j.val % 2048 < 2048 := by omega
    refine iInf_le_of_le ⟨j.val / 2048, h1⟩ (iInf_le_of_le ⟨j.val % 2048, h2⟩ (le_of_eq ?_))
    congr 1
    apply Fin.ext
    simp only [colOf]
    omega
  · exact le_iInf fun b => le_iInf fun jj => iInf_le _ _

/-- Adding a real constant commutes with an infimum on the extended reals. -/
theorem iInf_add_coe {ι : Type*} (f : ι → EReal) (a : ℝ) :
    (⨅ j, f j) + (a : EReal) = ⨅ j, (f j + (a : EReal)) := by
  apply le_antisymm
  · exact le_iInf fun j => add_le_add (iInf_le f j) le_rfl
  · have h : (⨅ j, (f j + (a : EReal))) - (a : EReal) ≤ ⨅ j, f j := by
      refine le_iInf fun j => ?_
      calc (⨅ j, (f j + (a : EReal))) - (a : EReal) ≤ (f j + (a : EReal)) - (a : EReal) :=
            EReal.sub_le_sub (iInf_le _ j) le_rfl
        _ = f j := EReal.add_sub_cancel_right
    calc (⨅ j, (f j + (a : EReal))) = ((⨅ j, (f j + (a : EReal))) - (a : EReal)) + (a : EReal) :=
          EReal.sub_add_cancel.symm
      _ ≤ (⨅ j, f j) + (a : EReal) := add_le_add h le_rfl

/-- With every coordinate a real number, the kernel's row quantity is the reference's row minimum. -/
theorem kerRowMin_eq_refRowMin (p q : Fin 8192 → Fin 128 → EReal)
    (hp : ∀ i d, ∃ r : ℝ, p i d = (r : EReal)) (hq : ∀ j d, ∃ r : ℝ, q j d = (r : EReal)) (i : Fin 8192) :
    kerRowMin p q i = refRowMin p q i := by
  choose P hP using hp
  choose Q hQ using hq
  obtain rfl : p = fun i d => ((P i d : ℝ) : EReal) := funext fun i => funext fun d => hP i d
  obtain rfl : q = fun j d => ((Q j d : ℝ) : EReal) := funext fun j => funext fun d => hQ j d
  unfold kerRowMin refRowMin
  rw [iInf_blocks (fun j => kerEntry _ _ i j), sqNorm_coe, iInf_add_coe]
  refine iInf_congr fun j => ?_
  rw [kerEntry_coe, refDist_coe, ← EReal.coe_add]
  congr 1
  ring

end Cert.DistLoss

end
-- ==== Proof.Finite.lean ====
/-
  From the precondition to "every entry is a real number".

  The precondition evaluates, for each of the six float arguments, the conjunction over all entries of
  |x| < +∞ , and states that the conjunction of the six results is true. Over the extended reals |x| = max x (−x),
  and max x (−x) < +∞ excludes both infinities (at −∞ the maximum is +∞ as well), so every entry is a real number.
  A concatenation only rearranges entries, so the concatenated points are real as well.
-/
import proofs.«157631_g19645180411971_cont_sun_c4_111_6_alg».proof.KernelIdeal
import proofs.«157631_g19645180411971_cont_sun_c4_111_6_alg».proof.Pre_finite_inputs
import Idealize.ShloMosaic.Lib.ValueIdx
import Idealize.ShloMosaic.Lib.Pipeline.Value
import Idealize.ShloMosaic.Lib.ReduceAll
import Idealize.ShloMosaic.Lib.IdealHost
import Idealize.ShloMosaic.PureOps.Ideal.Laws

noncomputable section

namespace Cert.KernelIdeal.Finite

open Idealize.ShloMosaic Idealize.ShloMosaic.ValueIdx

/-- The single-precision pattern of +∞ is the extended real +∞. -/
theorem ofBits_inf_f32 : Ideal.ofBits .f32 0x7F800000#32 = (⊤ : EReal) := by
  simp [Ideal.ofBits, Ideal.ieee]

/-- An extended real whose absolute value max x (−x) is below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

instance : Subsingleton (⟨0, ![]⟩ : Shape).Idx := ⟨fun a b => funext fun d => d.elim0⟩

/-- One entry of the test "|x| < +∞" being true says the entry is a real number. -/
theorem real_of_test {s : Shape} (a : FVec Ideal s .f32) (hb : (⟨0, ![]⟩ : Shape).BroadcastsInDim s ![]) (i : s.Idx)
    (h : cmpf .olt (Host.absf a) (broadcastInDim s ![] hb (constant (F := Ideal) ⟨0, ![]⟩ .f32 0x7F800000#32)) i = 1#1) :
    ∃ r : ℝ, a i = (r : EReal) := by
  rw [cmpf_apply, broadcastInDim_scalar_apply, constant_apply, ofBits_inf_f32] at h
  change BitVec.ofBool (decide (max (a i) (-(a i)) < (⊤ : EReal))) = 1#1 at h
  refine real_of_abs_lt_top _ ?_
  by_contra hc
  rw [decide_eq_false hc] at h
  exact absurd h (by decide)

section Pre
variable [Cert.Pre_finite_inputs.Facts]

/-- The precondition says that every entry of each of the six float arguments is a real number: it is the conjunction of
    six tests, each the conjunction over all entries of one argument of "|x| < +∞". -/
theorem finite_args (a0 a1 : (⟨S4096x128, .f32⟩ : BufTy).Contents (Elt Ideal)) (a2 : (⟨S8192x128, .f32⟩ : BufTy).Contents (Elt Ideal))
    (a3 a4 : (⟨S4096x1, .f32⟩ : BufTy).Contents (Elt Ideal)) (a5 : (⟨S8192x1, .f32⟩ : BufTy).Contents (Elt Ideal))
    (a6 : (⟨S_, .i32⟩ : BufTy).Contents (Elt Ideal))
    (h : Cert.Pre_finite_inputs.fn (F := Ideal) a0 a1 a2 a3 a4 a5 a6 = (fun _ => 1#1)) :
    (∀ j, ∃ r : ℝ, a0 j = (r : EReal)) ∧ (∀ j, ∃ r : ℝ, a1 j = (r : EReal)) ∧ (∀ j, ∃ r : ℝ, a2 j = (r : EReal)) ∧
    (∀ j, ∃ r : ℝ, a3 j = (r : EReal)) ∧ (∀ j, ∃ r : ℝ, a4 j = (r : EReal)) ∧ (∀ j, ∃ r : ℝ, a5 j = (r : EReal)) := by
  have h0 := congrFun h ix0
  dsimp only [Cert.Pre_finite_inputs.fn, Cert.Pre_finite_inputs.fn_part1] at h0
  have e : ∀ (x y : IVec (⟨0, ![]⟩ : Shape) 1), andi x y ix0 = 1#1 → x ix0 = 1#1 ∧ y ix0 = 1#1 :=
    fun x y hxy => IntOp.andi_eq_one.1 hxy
  obtain ⟨h0, h5⟩ := e _ _ h0
  obtain ⟨h0, h4⟩ := e _ _ h0
  obtain ⟨h0, h3⟩ := e _ _ h0
  obtain ⟨h0, h2⟩ := e _ _ h0
  obtain ⟨h0, h1⟩ := e _ _ h0
  exact ⟨fun j => real_of_test a0 _ j (Host.reduce_andi_all _ _ _ _ ix0 h0 j),
    fun j => real_of_test a1 _ j (Host.reduce_andi_all _ _ _ _ ix0 h1 j),
    fun j => real_of_test a2 _ j (Host.reduce_andi_all _ _ _ _ ix0 h2 j),
    fun j => real_of_test a3 _ j (Host.reduce_andi_all _ _ _ _ ix0 h3 j),
    fun j => real_of_test a4 _ j (Host.reduce_andi_all _ _ _ _ ix0 h4 j),
    fun j => real_of_test a5 _ j (Host.reduce_andi_all _ _ _ _ ix0 h5 j)⟩

theorem finite_arg0 (a0 a1 : (⟨S4096x128, .f32⟩ : BufTy).Contents (Elt Ideal)) (a2 : (⟨S8192x128, .f32⟩ : BufTy).Contents (Elt Ideal))
    (a3 a4 : (⟨S4096x1, .f32⟩ : BufTy).Contents (Elt Ideal)) (a5 : (⟨S8192x1, .f32⟩ : BufTy).Contents (Elt Ideal))
    (a6 : (⟨S_, .i32⟩ : BufTy).Contents (Elt Ideal))
    (h : Cert.Pre_finite_inputs.fn (F := Ideal) a0 a1 a2 a3 a4 a5 a6 = (fun _ => 1#1)) : ∀ j, ∃ r : ℝ, a0 j = (r : EReal) :=
  (finite_args a0 a1 a2 a3 a4 a5 a6 h).1

theorem finite_arg1 (a0 a1 : (⟨S4096x128, .f32⟩ : BufTy).Contents (Elt Ideal)) (a2 : (⟨S8192x128, .f32⟩ : BufTy).Contents (Elt Ideal))
    (a3 a4 : (⟨S4096x1, .f32⟩ : BufTy).Contents (Elt Ideal)) (a5 : (⟨S8192x1, .f32⟩ : BufTy).Contents (Elt Ideal))
    (a6 : (⟨S_, .i32⟩ : BufTy).Contents (Elt Ideal))
    (h : Cert.Pre_finite_inputs.fn (F := Ideal) a0 a1 a2 a3 a4 a5 a6 = (fun _ => 1#1)) : ∀ j, ∃ r : ℝ, a1 j = (r : EReal) :=
  (finite_args a0 a1 a2 a3 a4 a5 a6 h).2.1

theorem finite_arg2 (a0 a1 : (⟨S4096x128, .f32⟩ : BufTy).Contents (Elt Ideal)) (a2 : (⟨S8192x128, .f32⟩ : BufTy).Contents (Elt Ideal))
    (a3 a4 : (⟨S4096x1, .f32⟩ : BufTy).Contents (Elt Ideal)) (a5 : (⟨S8192x1, .f32⟩ : BufTy).Contents (Elt Ideal))
    (a6 : (⟨S_, .i32⟩ : BufTy).Contents (Elt Ideal))
    (h : Cert.Pre_finite_inputs.fn (F := Ideal) a0 a1 a2 a3 a4 a5 a6 = (fun _ => 1#1)) : ∀ j, ∃ r : ℝ, a2 j = (r : EReal) :=
  (finite_args a0 a1 a2 a3 a4 a5 a6 h).2.2.1

theorem finite_arg3 (a0 a1 : (⟨S4096x128, .f32⟩ : BufTy).Contents (Elt Ideal)) (a2 : (⟨S8192x128, .f32⟩ : BufTy).Contents (Elt Ideal))
    (a3 a4 : (⟨S4096x1, .f32⟩ : BufTy).Contents (Elt Ideal)) (a5 : (⟨S8192x1, .f32⟩ : BufTy).Contents (Elt Ideal))
    (a6 : (⟨S_, .i32⟩ : BufTy).Contents (Elt Ideal))
    (h : Cert.Pre_finite_inputs.fn (F := Ideal) a0 a1 a2 a3 a4 a5 a6 = (fun _ => 1#1)) : ∀ j, ∃ r : ℝ, a3 j = (r : EReal) :=
  (finite_args a0 a1 a2 a3 a4 a5 a6 h).2.2.2.1

theorem finite_arg4 (a0 a1 : (⟨S4096x128, .f32⟩ : BufTy).Contents (Elt Ideal)) (a2 : (⟨S8192x128, .f32⟩ : BufTy).Contents (Elt Ideal))
    (a3 a4 : (⟨S4096x1, .f32⟩ : BufTy).Contents (Elt Ideal)) (a5 : (⟨S8192x1, .f32⟩ : BufTy).Contents (Elt Ideal))
    (a6 : (⟨S_, .i32⟩ : BufTy).Contents (Elt Ideal))
    (h : Cert.Pre_finite_inputs.fn (F := Ideal) a0 a1 a2 a3 a4 a5 a6 = (fun _ => 1#1)) : ∀ j, ∃ r : ℝ, a4 j = (r : EReal) :=
  (finite_args a0 a1 a2 a3 a4 a5 a6 h).2.2.2.2.1

theorem finite_arg5 (a0 a1 : (⟨S4096x128, .f32⟩ : BufTy).Contents (Elt Ideal)) (a2 : (⟨S8192x128, .f32⟩ : BufTy).Contents (Elt Ideal))
    (a3 a4 : (⟨S4096x1, .f32⟩ : BufTy).Contents (Elt Ideal)) (a5 : (⟨S8192x1, .f32⟩ : BufTy).Contents (Elt Ideal))
    (a6 : (⟨S_, .i32⟩ : BufTy).Contents (Elt Ideal))
    (h : Cert.Pre_finite_inputs.fn (F := Ideal) a0 a1 a2 a3 a4 a5 a6 = (fun _ => 1#1)) : ∀ j, ∃ r : ℝ, a5 j = (r : EReal) :=
  (finite_args a0 a1 a2 a3 a4 a5 a6 h).2.2.2.2.2

end Pre

section Concat
variable [Facts]
open Facts₀ Facts

/-- Joining two arrays of real numbers along the rows gives an array of real numbers: every entry of the result is an
    entry of the first array (row below 4096) or of the second (row 4096 less). -/
theorem finite_concat (a0 a1 : (⟨S4096x128, .f32⟩ : BufTy).Contents (Elt Ideal))
    (h0 : ∀ j, ∃ r : ℝ, a0 j = (r : EReal)) (h1 : ∀ j, ∃ r : ℝ, a1 j = (r : EReal)) :
    ∀ j, ∃ r : ℝ, (concatenate S8192x128 0 [⟨S4096x128, a0⟩, ⟨S4096x128, a1⟩]
      concatenates_S4096x128_S4096x128_S8192x128_d0) j = (r : EReal) := by
  intro j
  have hj0 : (j 0).val < 8192 := idx2_lt0 j
  by_cases hj : (j 0).val < 4096
  · rw [concatenate_pair_apply_left (0 : Fin 2) a0 a1 concatenates_S4096x128_S4096x128_S8192x128_d0 j rfl
      (ix2 (⟨(j 0).val, hj⟩ : Fin 4096) (j 1)) (fun b => match b with | ⟨0, _⟩ => rfl | ⟨1, _⟩ => rfl)]
    exact h0 _
  · rw [concatenate_pair_apply_right (0 : Fin 2) a0 a1 concatenates_S4096x128_S4096x128_S8192x128_d0 j rfl rfl
      (ix2 (⟨(j 0).val - 4096, by omega⟩ : Fin 4096) (j 1))
      (fun b hb => match b, hb with | ⟨0, _⟩, hb => absurd rfl hb | ⟨1, _⟩, _ => rfl)
      (by show (j 0).val - 4096 + 4096 = (j 0).val; omega)]
    exact h1 _

end Concat

end Cert.KernelIdeal.Finite

end
-- ==== Proof.Assemble.lean ====
/-
  The two programs' three results agree.

  The kernel's closing operations give the shared means of its two result columns; the reference's three results are
  the shared means of the first and second loss terms built from the reference's row minimum. The kernel's columns
  hold, row by row, the first loss term of the kernel's row quantity and the second loss term. With every input a
  real number the kernel's row quantity is the reference's row minimum, so the columns are the reference's terms and
  the three results coincide.
-/
import proofs.«157631_g19645180411971_cont_sun_c4_111_6_alg».proof.Proof.KiTail
import proofs.«157631_g19645180411971_cont_sun_c4_111_6_alg».proof.Proof.RefSide
import proofs.«157631_g19645180411971_cont_sun_c4_111_6_alg».proof.Proof.Algebra
import proofs.«157631_g19645180411971_cont_sun_c4_111_6_alg».proof.Proof.Finite

noncomputable section

namespace Cert.Assemble

open Cert.KernelIdeal Cert.KernelIdeal.Facts₀ Cert.KernelIdeal.Facts Cert.DistLoss Idealize.ShloMosaic Idealize.ShloMosaic.ValueIdx
open scoped BigOperators

variable [Cert.KernelIdeal.Facts] [Cert.Pre_finite_inputs.Facts]

/-- The points: the two halves joined along the rows. -/
abbrev Pk (a0 a1 : (⟨S4096x128, .f32⟩ : BufTy).Contents (Elt Ideal)) : (⟨S8192x128, .f32⟩ : BufTy).Contents (Elt Ideal) :=
  concatenate S8192x128 0 [⟨S4096x128, a0⟩, ⟨S4096x128, a1⟩] concatenates_S4096x128_S4096x128_S8192x128_d0

/-- The predictions at the points: the two halves joined along the rows. -/
abbrev PEk (a3 a4 : (⟨S4096x1, .f32⟩ : BufTy).Contents (Elt Ideal)) : (⟨S8192x1, .f32⟩ : BufTy).Contents (Elt Ideal) :=
  concatenate S8192x1 0 [⟨S4096x1, a3⟩, ⟨S4096x1, a4⟩] concatenates_S4096x1_S4096x1_S8192x1_d0

/-- Both programs join the points in the same way. -/
theorem Pk_eq (a0 a1 : (⟨S4096x128, .f32⟩ : BufTy).Contents (Elt Ideal)) :
    Pk a0 a1 = Cert.ReferenceIdeal.ReadP.val_main_v0 (F := Ideal) a0 a1 := rfl

/-- Both programs join the predictions in the same way. -/
theorem PEk_eq (a3 a4 : (⟨S4096x1, .f32⟩ : BufTy).Contents (Elt Ideal)) :
    PEk a3 a4 = Cert.ReferenceIdeal.ReadP.val_main_v1 (F := Ideal) a3 a4 := rfl

/-- With every input a real number, and the kernel's two columns holding the loss terms row by row, the kernel's
    three results are the reference's. -/
theorem results_agree (a0 a1 : (⟨S4096x128, .f32⟩ : BufTy).Contents (Elt Ideal)) (a2 : (⟨S8192x128, .f32⟩ : BufTy).Contents (Elt Ideal))
    (a3 a4 : (⟨S4096x1, .f32⟩ : BufTy).Contents (Elt Ideal)) (a5 : (⟨S8192x1, .f32⟩ : BufTy).Contents (Elt Ideal))
    (a6 : (⟨S_, .i32⟩ : BufTy).Contents (Elt Ideal))
    (h : Cert.Pre_finite_inputs.fn (F := Ideal) a0 a1 a2 a3 a4 a5 a6 = (fun _ => 1#1))
    (FT MPA : (⟨S8192x1, .f32⟩ : BufTy).Contents (Elt Ideal))
    (hFT : ∀ i : Fin 8192, FT (ix2 i (0 : Fin 1)) = firstTerm (kerRowMin (rows (Pk a0 a1)) (rows a2) i) (col0 (PEk a3 a4) i))
    (hMPA : ∀ i : Fin 8192, MPA (ix2 i (0 : Fin 1)) = eabs (col0 a5 i)) :
    Cert.KernelIdeal.Tail.lossTail FT MPA a6 = Cert.ReferenceIdeal.ReadP.val_main_v33 (F := Ideal) a0 a1 a2 a3 a4 a5 a6
    ∧ Cert.KernelIdeal.Tail.meanTail FT = Cert.ReferenceIdeal.ReadP.val_main_v35 (F := Ideal) a0 a1 a2 a3 a4
    ∧ Cert.KernelIdeal.Tail.meanTail MPA = Cert.ReferenceIdeal.ReadP.val_main_v37 (F := Ideal) a5 := by
  have hp : ∀ i d, ∃ r : ℝ, rows (Pk a0 a1) i d = (r : EReal) := fun i d =>
    Cert.KernelIdeal.Finite.finite_concat a0 a1 (Cert.KernelIdeal.Finite.finite_arg0 a0 a1 a2 a3 a4 a5 a6 h)
      (Cert.KernelIdeal.Finite.finite_arg1 a0 a1 a2 a3 a4 a5 a6 h) (ix2 i d)
  have hq : ∀ j d, ∃ r : ℝ, rows a2 j d = (r : EReal) := fun j d =>
    Cert.KernelIdeal.Finite.finite_arg2 a0 a1 a2 a3 a4 a5 a6 h (ix2 j d)
  have hfirst : col0 FT = firstVec (refRowMin (rows (Cert.ReferenceIdeal.ReadP.val_main_v0 (F := Ideal) a0 a1)) (rows a2))
      (Cert.ReferenceIdeal.ReadP.val_main_v1 (F := Ideal) a3 a4) := by
    funext i
    show FT (ix2 i (0 : Fin 1)) = firstTerm (refRowMin (rows (Pk a0 a1)) (rows a2) i) (col0 (PEk a3 a4) i)
    rw [hFT i, kerRowMin_eq_refRowMin _ _ hp hq i]
  have hsecond : col0 MPA = secondVec a5 := funext fun i => hMPA i
  refine ⟨?_, ?_, ?_⟩
  · rw [Cert.KernelIdeal.Tail.lossTail_eq, Cert.ReferenceIdeal.RefValue.ref_loss, hfirst, hsecond]
  · rw [Cert.KernelIdeal.Tail.meanTail_eq, Cert.ReferenceIdeal.RefValue.ref_first, hfirst]
  · rw [Cert.KernelIdeal.Tail.meanTail_eq, Cert.ReferenceIdeal.RefValue.ref_second, hsecond]

end Cert.Assemble

end
-- ==== Proof.Claims.lean ====
/-
  The five claims.

  Three frames: each program runs to its end and leaves its seven arguments as they were (the reference's is its
  run with the three results forgotten). The idealization rewrote no operation, so there is nothing to preserve.

  The agreement at the ideal values: the kernel's three results are the closing means of its two result columns
  (and their weighted sum); the reference's three results are the same means of the first and second loss terms
  built from the reference's row minimum. Row i of the 8192 is row i mod 512 of row block i / 512, where the kernel
  leaves, at the last column block, the first loss term of its own row quantity and the second loss term. With
  every input a real number the kernel's row quantity is the reference's row minimum, so the columns are the
  reference's terms and the three results coincide.
-/
import proofs.«157631_g19645180411971_cont_sun_c4_111_6_alg».proof.Defs
import proofs.«157631_g19645180411971_cont_sun_c4_111_6_alg».proof.Proof.KbFrame
import proofs.«157631_g19645180411971_cont_sun_c4_111_6_alg».proof.Proof.KiFrame
import proofs.«157631_g19645180411971_cont_sun_c4_111_6_alg».proof.Proof.RunP
import proofs.«157631_g19645180411971_cont_sun_c4_111_6_alg».proof.Proof.KiFinal
import proofs.«157631_g19645180411971_cont_sun_c4_111_6_alg».proof.Proof.KiValue
import proofs.«157631_g19645180411971_cont_sun_c4_111_6_alg».proof.Proof.Assemble
import proofs.«157631_g19645180411971_cont_sun_c4_111_6_alg».proof.Proof.KiBlocks
import proofs.«157631_g19645180411971_cont_sun_c4_111_6_alg».proof.Proof.Gen.Pre_finite_inputs

noncomputable section

namespace Cert.Proof.Claims

open Idealize.ShloMosaic Idealize.SL.Sem Idealize.ShloMosaic.TcCoe Idealize.ShloMosaic.ValueIdx Cert.DistLoss

/-! ## The frames -/

/-- The program as printed runs to its end with its seven arguments unchanged. -/
theorem frame_k : Cert.frame_Kernel := fun m ρ _ => Cert.Kernel.Hand.frame (F := Bits) m ρ

/-- The same of the program read at the ideal values. -/
theorem frame_ki : Cert.frame_KernelIdeal := fun m ρ _ => Cert.KernelIdeal.Hand.frame (F := Ideal) m ρ

/-- The reference runs to its end with its seven arguments unchanged: its run, the three results forgotten. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The ideal pass rewrote no operation: nothing to preserve. -/
theorem preserves : Cert.preserves_Kernel_KernelIdeal := trivial

/-! ## The results agree -/

section Agree

open Cert.KernelIdeal

variable (m : (ℓ : Loc nD τ sig) → Buf (Elt Ideal) ℓ) (c : Dev nD)

/-- Row `i` of the 8192 is row `i mod 512` of row block `i / 512`: anything read at the row
    512 · (i / 512) + i mod 512 is read at row `i`. -/
theorem at_row {α : Sort*} (f : Fin 8192 → α) (i : Fin 8192) (h : 512 * (i.val / 512) + i.val % 512 < 8192) :
    f ⟨512 * (i.val / 512) + i.val % 512, h⟩ = f i :=
  congrArg f (Fin.ext (Nat.div_add_mod i.val 512))

/-- The first result column, row by row: the first loss term of the kernel's row quantity. -/
theorem first_column (i : Fin 8192) :
    ((Hand.dats m 0 c).arrAt 5 cfg0.N : S8192x1.Idx → EReal) (ix2 i (0 : Fin 1))
      = firstTerm (kerRowMin (rows (Cert.Assemble.Pk (m ((c.tc : Thread nD τ).loc main_arg0)) (m ((c.tc : Thread nD τ).loc main_arg1))))
            (rows (m ((c.tc : Thread nD τ).loc main_arg2))) i)
          (col0 (Cert.Assemble.PEk (m ((c.tc : Thread nD τ).loc main_arg3)) (m ((c.tc : Thread nD τ).loc main_arg4))) i) :=
  (Final.final5 m c i).trans ((Value2.out5_row m c ⟨i.val / 512, by have := i.isLt; omega⟩ ⟨i.val % 512, Nat.mod_lt _ (by decide)⟩ _).trans
    (at_row (fun j => firstTerm (kerRowMin (rows (Blocks.Pk m c)) (rows (m ((c.tc : Thread nD τ).loc main_arg2))) j) (col0 (Blocks.PEk m c) j)) i _))

/-- The second result column, row by row: the second loss term. -/
theorem second_column (i : Fin 8192) :
    ((Hand.dats m 0 c).arrAt 6 cfg0.N : S8192x1.Idx → EReal) (ix2 i (0 : Fin 1))
      = eabs (col0 (m ((c.tc : Thread nD τ).loc main_arg5)) i) :=
  (Final.final6 m c i).trans ((Value2.out6_row m c ⟨i.val / 512, by have := i.isLt; omega⟩ ⟨i.val % 512, Nat.mod_lt _ (by decide)⟩ _).trans
    (at_row (fun j => eabs (col0 (m ((c.tc : Thread nD τ).loc main_arg5)) j)) i _))

end Agree

/-- At the ideal values, from memories that agree on the seven arguments, all of them real numbers: the kernel's three
    results are the closing means of its two result columns, the reference's are the same means of the loss terms of
    its row minimum, and the columns hold those terms because the kernel's row quantity is the reference's row minimum. -/
theorem algebraic : Cert.algebraic_KernelIdeal_ReferenceIdeal := by
  intro m ρ m' ρ' hpre hagree
  refine ⟨_, _, _, Cert.KernelIdeal.Final.kernel_results m ρ, ?_⟩
  refine (θ_run Cert.ReferenceIdeal.defs _ _).mono (fun _ h c => ?_) (Cert.ReferenceIdeal.ValueP.run (F := Ideal) m' ρ')
  have key := Cert.Assemble.results_agree _ _ _ _ _ _ _ (hpre c) _ _ (first_column m c) (second_column m c)
  obtain ⟨h33, h35, h37, hargs⟩ := h c
  obtain ⟨e0, e1, e2, e3, e4, e5, e6⟩ := hagree c
  refine ⟨h33.trans ?_, h35.trans ?_, h37.trans ?_, hargs⟩
  · rw [e0, e1, e2, e3, e4, e5, e6]
    exact (Cert.ReferenceIdeal.ReadP.val_main_v33_eq (F := Ideal) _ _ _ _ _ _ _).trans key.1.symm
  · rw [e0, e1, e2, e3, e4]
    exact (Cert.ReferenceIdeal.ReadP.val_main_v35_eq (F := Ideal) _ _ _ _ _).trans key.2.1.symm
  · rw [e5]
    exact (Cert.ReferenceIdeal.ReadP.val_main_v37_eq (F := Ideal) _).trans key.2.2.symm

end Cert.Proof.Claims

end
-- ==== Proof.lean ====
/-
  The certificate of a fused nearest-neighbour distance loss against its plain reference.

  Inputs: 8192 points p_i in ℝ^128 (two arrays of 4096 rows, concatenated), a cloud of 8192 points q_j in ℝ^128, a
  predicted value e_i at each point, a predicted value u_i at each of 8192 manifold points, and an integer weight λ.
  Both programs compute, with d_i = min_j ‖p_i − q_j‖² expanded as ‖p_i‖² + ‖q_j‖² − 2⟨p_i, q_j⟩ and ε the
  single-precision word nearest 1e-7,
      first_i = | √(|d_i| + ε) − |e_i| | ,   second_i = |u_i| ,
      ( mean(first) + λ · mean(second),  mean(first),  mean(second) ).

  The reference forms the whole 8192 × 8192 matrix of squared distances and takes row minima. The kernel never forms it:
  on the host it builds augmented rows [−2 p_i, 1, 1] and augmented columns [q_j, ‖q_j‖², ‖q_j‖² − ‖q_j‖²]; on a 16 × 4
  grid it multiplies a block of 512 rows by a block of 2048 columns (130 terms per entry, so each entry is
  ‖q_j‖² − 2⟨p_i, q_j⟩), keeps the running row minimum over the four column blocks in a scratch column, and at the fourth
  block adds ‖p_i‖² and writes first_i and second_i; the host then takes the means.

  Over the extended reals, with every input a real number (the precondition), the two agree: −2 distributes over the
  inner product, x − x = 0 for a real x, a minimum taken block by block is the minimum, and adding a real constant
  commutes with a minimum. The modules below state this in small steps:
    Spec, SpecTail   the two row minima and what follows them, as formulas over plain indices;
    Algebra          the kernel's row minimum is the reference's, for real inputs;
    ReadP, RunP      the reference one operation at a time, and its run;            RefSide   its results as the formulas;
    K?Shared, K?Runs, K?Frame   each kernel program runs to its end and keeps its arguments (word level and idealized);
    KiPieces, KiPay, KiRow      what the body's stores are, read at an index;      KiBlocks, HostPre   the blocks and the arrays they slice;
    KiValue, KiFinal, KiTail    the kernel's result columns row by row, and its three results;
    Finite, Assemble, Claims    real inputs from the precondition, the two sides joined, the five claims.
-/
import proofs.«157631_g19645180411971_cont_sun_c4_111_6_alg».proof.Defs
import proofs.«157631_g19645180411971_cont_sun_c4_111_6_alg».proof.Proof.Gen.Kernel
import proofs.«157631_g19645180411971_cont_sun_c4_111_6_alg».proof.Proof.Gen.KernelIdeal
import proofs.«157631_g19645180411971_cont_sun_c4_111_6_alg».proof.Proof.Gen.ReferenceIdeal
import proofs.«157631_g19645180411971_cont_sun_c4_111_6_alg».proof.Proof.Gen.Pre_finite_inputs
import proofs.«157631_g19645180411971_cont_sun_c4_111_6_alg».proof.Proof.Claims

noncomputable section

namespace Cert.Proof

/-- The five claims under the programs' stated side conditions. -/
theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
